-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S_ : Shape := ⟨0, ![]⟩
abbrev S4x8x4096 : Shape := ⟨3, ![4, 8, 4096]⟩
abbrev S4x1x1 : Shape := ⟨3, ![4, 1, 1]⟩
abbrev S1x8x512 : Shape := ⟨3, ![1, 8, 512]⟩
abbrev S1x8x4096 : Shape := ⟨3, ![1, 8, 4096]⟩
abbrev S1x1x1 : Shape := ⟨3, ![1, 1, 1]⟩
abbrev S1x4096 : Shape := ⟨2, ![1, 4096]⟩
abbrev S8x512 : Shape := ⟨2, ![8, 512]⟩
abbrev S8x4096 : Shape := ⟨2, ![8, 4096]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x512 : Shape := ⟨2, ![1, 512]⟩
abbrev S1 : Shape := ⟨1, ![1]⟩
abbrev S1x1 : Shape := ⟨2, ![1, 1]⟩
abbrev S1x1x4096 : Shape := ⟨3, ![1, 1, 4096]⟩

abbrev nBuf : Space → Nat
  | .hbm => 20
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S_, .i32⟩
  | .hbm, ⟨4, _⟩ => ⟨S_, .f32⟩
  | .hbm, ⟨5, _⟩ => ⟨S4x8x4096, .f32⟩
  | .hbm, ⟨6, _⟩ => ⟨S4x3x4096, .f32⟩
  | .hbm, ⟨7, _⟩ => ⟨S_, .i32⟩
  | .hbm, ⟨8, _⟩ => ⟨S_, .f32⟩
  | .hbm, ⟨9, _⟩ => ⟨S4x8x4096, .f32⟩
  | .hbm, ⟨10, _⟩ => ⟨S4x1x1, .f32⟩
  | .hbm, ⟨11, _⟩ => ⟨S4x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x8x512, .f32⟩
  | .local _ .vmem, ⟨1, _⟩ => ⟨S1x8x512, .f32⟩
  | .local _ .vmem, ⟨2, _⟩ => ⟨S1x8x4096, .f32⟩
  | .local _ .vmem, ⟨3, _⟩ => ⟨S1x8x4096, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_12 : BitVec 32 := 0#32
  let v28 : BitVec 1 := Scalar.cmpi .ne v27 c0_i32_12
  v28

def k0_cond2 (i : grid0.Coords) : BitVec 1 :=
  let arg1 : BitVec 32 := BitVec.ofNat 32 (i 1).val
  let c0_i32_13 : BitVec 32 := 0#32
  let v29 : BitVec 1 := Scalar.cmpi .sgt arg1 c0_i32_13
  let v30 : BitVec 32 := Scalar.extui v29
  let c0_i32_14 : BitVec 32 := 0#32
  let v31 : BitVec 1 := Scalar.cmpi .ne v30 c0_i32_14
  v31

def k0_cond3 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_15 : BitVec 32 := 0#32
  let v34 : BitVec 1 := Scalar.cmpi .ne v33 c0_i32_15
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x4096x3_S4x3x4096_0_2_1 : S4x4096x3.Transposes [0, 2, 1] S4x3x4096
  pads_S4x3x4096_S4x8x4096_000_050_000 : S4x3x4096.Pads (![0, 0, 0] : Fin 3 → Nat) ![0, 5, 0] ![0, 0, 0] S4x8x4096
  h_S_ : 0 < S_.numel
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  reduces_S8x512_S512 : S8x512.Reduces [0] S512
  shapeCasts_S512_S512x1 : S512.ShapeCasts S512x1
  reduces_S8x4096_S4096 : S8x4096.Reduces [0] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S4096 : S512x4096.Reduces [0] S4096
  reduces_S512x4096_S512 : S512x4096.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x1x1_S1x1x1 : S1x1x1.ShapeCasts S1x1x1
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  reducesTo_S4x1x1_S_d0_1_2 : S4x1x1.ReducesTo [0, 1, 2] S_
  dot_S8x512_S8x4096_S512x4096_0_0_1_1_n_n_wf : DotDims.WF S8x512 S8x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S4x8x4096.size a
  hwx0_0 : ∀ i : grid0.Coords, EltTy.bits .f32 = 32 ∨ (Rect.block (s := S4x8x4096) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S4x8x4096.size a
  hwx0_1 : ∀ i : grid0.Coords, EltTy.bits .f32 = 32 ∨ (Rect.block (s := S4x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

def dot_S8x512_S8x4096_S512x4096_0_0_1_1_n_n : DotDims S8x512 S8x4096 S512x4096 where
  lhsContracting := [0]
  rhsContracting := [0]
  lhsNonContracting := [1]
  rhsNonContracting := [1]
  lhsBatch := []
  rhsBatch := []
  wf := dot_S8x512_S8x4096_S512x4096_0_0_1_1_n_n_wf

abbrev win0_0 : Pipeline.Window sig grid0 :=
  Pipeline.Window.ofSpec (Memref.whole main_v1) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.Base.lean ====
/-
  The grid of the one kernel is 4 batches × 8 row blocks, point t = 8·b + i.  The body branches three times on the
  row-block coordinate i alone: "i = 0" (start the two running quantities), "i > 0" (fold this block into them) and
  "i = 7" (sum the finished column minima).  Here: the three conditions as facts about t mod 8, where each output
  window is idle, the staging memrefs at a point, and the scoped rest of the region as the scratch row owned at
  some contents.
-/
import proofs.«158327_g5248450036649_cont_9to1c4b_658_5_alg».proof.Proof.Gen.Kernel.Frame
import proofs.«158327_g5248450036649_cont_9to1c4b_658_5_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- "i = 0" holds exactly at the first row block of a batch. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "i > 0" holds at every other row block. -/
theorem hcond2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)
/-- "i = 7" holds exactly at the last row block of a batch. -/
theorem hcond3 : ∀ t : Fin cfg0.N, k0_cond3 (grid0.coords t) = 1#1 ↔ t.val % 8 = 7 :=
  (by decide +kernel : ∀ t : Fin grid0.N, k0_cond3 (grid0.coords t) = 1#1 ↔ t.val % 8 = 7)

/-- The two input windows and the row-sum output are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The column-sum output is stored only at the last row block of a batch: -/
theorem live3 : ∀ t : Fin cfg0.N, t.val % 8 = 7 → cfg0.idle 3 (grid0.coords t) = false := by decide +kernel
/-- elsewhere it is idle and not written back. -/
theorem idle3 : ∀ t : Fin cfg0.N, t.val % 8 ≠ 7 → cfg0.idle 3 (grid0.coords t) = true := by decide +kernel
theorem noFlush3 : ∀ t : Fin cfg0.N, t.val % 8 ≠ 7 → (cfg0.win 3).flush t = false := by decide +kernel

/-- Each window's current staging memref at point t, as the pipeline passes it, and its wholeness. -/
abbrev ms0 (t : Fin cfg0.N) : Memref sig .tc .vmem S1x8x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The scratch row of running column minima: a whole scoped buffer of the kernel's own. -/
abbrev scM : Memref sig .tc .vmem S1x4096 .f32 := Memref.whole cc0_scratch0

/-- What the region hands the body besides the windows: the scratch row at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.RunA.lean ====
/-
  The body at the first row block of a batch (i = 0): it loads the two input blocks, stores this block's sum of
  row minima into the row-sum buffer and this block's column minima into the scratch row; the column-sum buffer is
  not touched.  The stores each buffer ends with are found by running the body.
-/
import proofs.«158327_g5248450036649_cont_9to1c4b_658_5_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs at their contents, the row-sum buffer and the scratch row at anything, the
    column-sum buffer at contents handed back untouched: the body runs to the continuation with the inputs as they
    were and the two stored buffers with their pieces written. -/
noncomputable def runA (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) :
    Σ' (L2 : List (View.Piece (Elt F) S1x1x1 .f32)), { LS : List (View.Piece (Elt F) S1x4096 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, fun xi3 E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.K.RunB.lean ====
/-
  The body at a middle row block of a batch (0 < i < 7): it loads the two input blocks, adds this block's sum of row
  minima to the row-sum buffer and folds this block's column minima into the scratch row by a pointwise minimum; the
  column-sum buffer is not touched.
-/
import proofs.«158327_g5248450036649_cont_9to1c4b_658_5_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs, the row-sum buffer and the scratch row at their contents, the column-sum
    buffer at contents handed back untouched: the body runs to the continuation with the inputs as they were and the
    two stored buffers with their pieces written. -/
noncomputable def runB (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) :
    Σ' (L2 : List (View.Piece (Elt F) S1x1x1 .f32)), { LS : List (View.Piece (Elt F) S1x4096 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xo2
            ∗ owns (c : Thread nD τ) arg5 fullShare xi3 ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, fun xi3 E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Hand

end
-- ==== Proof.K.RunC.lean ====
/-
  The body at the last row block of a batch (i = 7): as at a middle block, and then it loads the finished scratch row
  of column minima back, sums it, and stores the sum into the column-sum buffer.
-/
import proofs.«158327_g5248450036649_cont_9to1c4b_658_5_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs, the row-sum buffer and the scratch row at their contents, the column-sum
    buffer at anything: the body runs to the continuation with the inputs as they were and the three stored buffers
    with their pieces written. -/
noncomputable def runC (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) :
    Σ' (L2 : List (View.Piece (Elt F) S1x1x1 .f32)) (L3 : List (View.Piece (Elt F) S1x1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Hand

end
-- ==== Proof.K.Frame.lean ====
/-
  The kernel region point by point.  At point t = 8·b + i the row-sum buffer, the column-sum buffer and the scratch
  row of running column minima hold what the body's stores left there: at i = 0 the case "start", afterwards the
  case "fold" over what the point before left, at i = 7 also the finished column sum.  From the three runs of the body:
  what each buffer holds after each point (by recursion on the point), the proof data of the pipeline, the body's
  obligation at every point, the run of the whole program, and the program's frame.
-/
import proofs.«158327_g5248450036649_cont_9to1c4b_658_5_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window and the scratch row, as views through which contents are stated. -/
abbrev VO2 : View sig .tc .vmem S1x1x1 .f32 := (Memref.whole cc0_stg2_0 : Memref sig .tc .vmem S1x1x1 .f32).view
abbrev VO3 : View sig .tc .vmem S1x1x1 .f32 := (Memref.whole cc0_stg3_0 : Memref sig .tc .vmem S1x1x1 .f32).view
abbrev VS : View sig .tc .vmem S1x4096 .f32 := scM.view

/-- The three buffers the kernel carries: row sum, column sum, scratch row. -/
abbrev Outs (F : FTy → Type) : Type := Vec F S1x1x1 .f32 × Vec F S1x1x1 .f32 × Vec F S1x4096 .f32

/-! ## Each case's stores cover the buffers they are made into -/

theorem cover2_A (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) (y : S1x1x1.Idx) :
    ∃ pc ∈ (runA c i arg2 harg2 arg3 harg3 arg4 harg4 arg5 harg5 arg6 harg6 hc1 hc2 hc3 x0 x1).1, y ∈ pc.1.set :=
  View.cover_of_tiledL _ S1x1x1.size (by sl_kernel_rfl) y
theorem scover_A (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) (y : S1x4096.Idx) :
    ∃ pc ∈ (runA c i arg2 harg2 arg3 harg3 arg4 harg4 arg5 harg5 arg6 harg6 hc1 hc2 hc3 x0 x1).2.1, y ∈ pc.1.set :=
  View.cover_of_tiledL _ S1x4096.size (by sl_kernel_rfl) y
theorem cover2_B (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runB c i arg2 harg2 arg3 harg3 arg4 harg4 arg5 harg5 arg6 harg6 hc1 hc2 hc3 x0 x1 xo2 xs).1, y ∈ pc.1.set :=
  View.cover_of_tiledL _ S1x1x1.size (by sl_kernel_rfl) y
theorem scover_B (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) (y : S1x4096.Idx) :
    ∃ pc ∈ (runB c i arg2 harg2 arg3 harg3 arg4 harg4 arg5 harg5 arg6 harg6 hc1 hc2 hc3 x0 x1 xo2 xs).2.1, y ∈ pc.1.set :=
  View.cover_of_tiledL _ S1x4096.size (by sl_kernel_rfl) y
theorem cover2_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runC c i arg2 harg2 arg3 harg3 arg4 harg4 arg5 harg5 arg6 harg6 hc1 hc2 hc3 x0 x1 xo2 xs).1, y ∈ pc.1.set :=
  View.cover_of_tiledL _ S1x1x1.size (by sl_kernel_rfl) y
theorem cover3_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runC c i arg2 harg2 arg3 harg3 arg4 harg4 arg5 harg5 arg6 harg6 hc1 hc2 hc3 x0 x1 xo2 xs).2.1, y ∈ pc.1.set :=
  View.cover_of_tiledL _ S1x1x1.size (by sl_kernel_rfl) y
theorem scover_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x4096.Idx) :
    ∃ pc ∈ (runC c i arg2 harg2 arg3 harg3 arg4 harg4 arg5 harg5 arg6 harg6 hc1 hc2 hc3 x0 x1 xo2 xs).2.2.1, y ∈ pc.1.set :=
  View.cover_of_tiledL _ S1x4096.size (by sl_kernel_rfl) y

/-! ## What the three buffers hold after a point, case by case -/

/-- After a point with i = 0: the row sum and the scratch row as that case's stores left them (the column-sum
    buffer is idle there: a placeholder nothing consults). -/
def atA (c : Dev nD) (t : Fin cfg0.N) (h0 : t.val % 8 = 0) : Outs F :=
  (VO2.read (Elt F) (VO2.writes (Elt F) VO2.junk (runA c (grid0.coords t) (ms0 t) (hs0 t) (ms1 t) (hs1 t) (ms2 t) (hs2 t) (ms3 t) (hs3 t) scM (Memref.isWhole_whole _) ((hcond1 t).mpr h0) (fun h => (hcond2 t).mp h h0) (fun h => by have := (hcond3 t).mp h; omega) (iblk m c 0 t) (iblk m c 1 t)).1),
   VO3.read (Elt F) VO3.junk,
   VS.read (Elt F) (VS.writes (Elt F) VS.junk (runA c (grid0.coords t) (ms0 t) (hs0 t) (ms1 t) (hs1 t) (ms2 t) (hs2 t) (ms3 t) (hs3 t) scM (Memref.isWhole_whole _) ((hcond1 t).mpr h0) (fun h => (hcond2 t).mp h h0) (fun h => by have := (hcond3 t).mp h; omega) (iblk m c 0 t) (iblk m c 1 t)).2.1))

/-- After a point with 0 < i < 7, over what the point before left. -/
def atB (c : Dev nD) (t : Fin cfg0.N) (h0 : ¬t.val % 8 = 0) (h7 : ¬t.val % 8 = 7) (prev : Outs F) : Outs F :=
  (VO2.read (Elt F) (VO2.writes (Elt F) VO2.junk (runB c (grid0.coords t) (ms0 t) (hs0 t) (ms1 t) (hs1 t) (ms2 t) (hs2 t) (ms3 t) (hs3 t) scM (Memref.isWhole_whole _) (fun h => h0 ((hcond1 t).mp h)) ((hcond2 t).mpr h0) (fun h => h7 ((hcond3 t).mp h)) (iblk m c 0 t) (iblk m c 1 t) prev.1 prev.2.2).1),
   VO3.read (Elt F) VO3.junk,
   VS.read (Elt F) (VS.writes (Elt F) VS.junk (runB c (grid0.coords t) (ms0 t) (hs0 t) (ms1 t) (hs1 t) (ms2 t) (hs2 t) (ms3 t) (hs3 t) scM (Memref.isWhole_whole _) (fun h => h0 ((hcond1 t).mp h)) ((hcond2 t).mpr h0) (fun h => h7 ((hcond3 t).mp h)) (iblk m c 0 t) (iblk m c 1 t) prev.1 prev.2.2).2.1))

/-- After a point with i = 7, over what the point before left: all three buffers stored. -/
def atC (c : Dev nD) (t : Fin cfg0.N) (h0 : ¬t.val % 8 = 0) (h7 : t.val % 8 = 7) (prev : Outs F) : Outs F :=
  (VO2.read (Elt F) (VO2.writes (Elt F) VO2.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).1),
   VO3.read (Elt F) (VO3.writes (Elt F) VO3.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).2.1),
   VS.read (Elt F) (VS.writes (Elt F) VS.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).2.2.1))

/-- THE ACCUMULATION: the three buffers after the point at position n, by recursion on n. -/
def outsAt (c : Dev nD) : (n : ℕ) → n < cfg0.N → Outs F
  | 0, hn => atA m c ⟨0, hn⟩ (Nat.zero_mod _)
  | n + 1, hn =>
    if h0 : (n + 1) % 8 = 0 then atA m c ⟨n + 1, hn⟩ h0
    else if h7 : (n + 1) % 8 = 7 then atC m c ⟨n + 1, hn⟩ h0 h7 (outsAt c n (Nat.lt_of_succ_lt hn))
    else atB m c ⟨n + 1, hn⟩ h0 h7 (outsAt c n (Nat.lt_of_succ_lt hn))

theorem outsAt_A (c : Dev nD) (t : Fin cfg0.N) (h0 : t.val % 8 = 0) : outsAt m c t.val t.isLt = atA m c t h0 := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = atB m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem outsAt_C (c : Dev nD) (t : Fin cfg0.N) (h0 : ¬t.val % 8 = 0) (h7 : t.val % 8 = 7) :
    outsAt m c t.val t.isLt = atC m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- The region's invariant before position n: before the first point the scratch row at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

/-- The arrays as the region finds them; after the body at point t each input's buffer at its block, the two
    outputs' at the accumulation; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- One of "i = 0" and "i > 0" holds at every grid point, so the row-sum window is never idle. -/
theorem live2_all : ∀ i : grid0.Coords, cfg0.idle 2 i = false := by decide +kernel

/-- Inside a batch (i > 0) the row-sum buffer holds what the point before left: it was not written back between. -/
theorem before2 (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare ((outsAt m c t.val t.isLt).1) := by
  unfold Dat.leavesExact; rw [live2 t, after2]
theorem leaves3_live (c : Dev nD) (t : Fin cfg0.N) (h7 : t.val % 8 = 7) :
    (dats m 0 c).leavesExact 3 t = owns (c : Thread nD τ) (ms3 t) fullShare ((outsAt m c t.val t.isLt).2.1) := by
  unfold Dat.leavesExact; rw [live3 t h7, after3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 8 = 0
  · have h7 : ¬t.val % 8 = 7 := by omega
    rw [Dat.leavesExact_idle (dats m 0 c) 3 t (idle3 t h7) (noFlush3 t h7)]
    rw [outsAt_A m c t h0]
    unfold atA; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    simp only [before2 m c t h0]
    rw [PhiS_castSucc m c t, PhiS_pos m c _ _ hz]
    by_cases h7 : t.val % 8 = 7
    · rw [leaves3_live m c t h7]
      rw [outsAt_C m c t h0 h7]
      unfold atC; dsimp only
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond1 t).mp h)) ((hcond2 t).mpr h0) ((hcond3 t).mpr h7) (iblk m c 0 t) (iblk m c 1 t) _ _).2.2.2 Set.univ _)
      isplitl [H0]; · iexact H0
      isplitl [H1]; · iexact H1
      isplitl [H2]; · iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _ _)
    · rw [Dat.leavesExact_idle (dats m 0 c) 3 t (idle3 t h7) (noFlush3 t h7)]
      rw [outsAt_B m c t h0 h7]
      unfold atB; dsimp only
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond1 t).mp h)) ((hcond2 t).mpr h0) (fun h => h7 ((hcond3 t).mp h)) (iblk m c 0 t) (iblk m c 1 t) _ _).2.2 _ Set.univ _)
      isplitl [H0]; · iexact H0
      isplitl [H1]; · iexact H1
      isplitl [H2]; · iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _ _)
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates; every final state has each array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program's frame: it runs to the end, faults nowhere, and leaves both point clouds as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Base.lean ====
/-
  The grid of the one kernel is 4 batches × 8 row blocks, point t = 8·b + i.  The body branches three times on the
  row-block coordinate i alone: "i = 0" (start the two running quantities), "i > 0" (fold this block into them) and
  "i = 7" (sum the finished column minima).  Here: the three conditions as facts about t mod 8, where each output
  window is idle, the staging memrefs at a point, and the scoped rest of the region as the scratch row owned at
  some contents.
-/
import proofs.«158327_g5248450036649_cont_9to1c4b_658_5_alg».proof.Proof.Gen.KernelIdeal.Frame
import proofs.«158327_g5248450036649_cont_9to1c4b_658_5_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- "i = 0" holds exactly at the first row block of a batch. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- "i > 0" holds at every other row block. -/
theorem hcond2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)
/-- "i = 7" holds exactly at the last row block of a batch. -/
theorem hcond3 : ∀ t : Fin cfg0.N, k0_cond3 (grid0.coords t) = 1#1 ↔ t.val % 8 = 7 :=
  (by decide +kernel : ∀ t : Fin grid0.N, k0_cond3 (grid0.coords t) = 1#1 ↔ t.val % 8 = 7)

/-- The two input windows and the row-sum output are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The column-sum output is stored only at the last row block of a batch: -/
theorem live3 : ∀ t : Fin cfg0.N, t.val % 8 = 7 → cfg0.idle 3 (grid0.coords t) = false := by decide +kernel
/-- elsewhere it is idle and not written back. -/
theorem idle3 : ∀ t : Fin cfg0.N, t.val % 8 ≠ 7 → cfg0.idle 3 (grid0.coords t) = true := by decide +kernel
theorem noFlush3 : ∀ t : Fin cfg0.N, t.val % 8 ≠ 7 → (cfg0.win 3).flush t = false := by decide +kernel

/-- Each window's current staging memref at point t, as the pipeline passes it, and its wholeness. -/
abbrev ms0 (t : Fin cfg0.N) : Memref sig .tc .vmem S1x8x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The scratch row of running column minima: a whole scoped buffer of the kernel's own. -/
abbrev scM : Memref sig .tc .vmem S1x4096 .f32 := Memref.whole cc0_scratch0

/-- What the region hands the body besides the windows: the scratch row at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The body at the first row block of a batch (i = 0): it loads the two input blocks, stores this block's sum of
  row minima into the row-sum buffer and this block's column minima into the scratch row; the column-sum buffer is
  not touched.  The stores each buffer ends with are found by running the body.
-/
import proofs.«158327_g5248450036649_cont_9to1c4b_658_5_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs at their contents, the row-sum buffer and the scratch row at anything, the
    column-sum buffer at contents handed back untouched: the body runs to the continuation with the inputs as they
    were and the two stored buffers with their pieces written. -/
noncomputable def runA (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) :
    Σ' (L2 : List (View.Piece (Elt F) S1x1x1 .f32)), { LS : List (View.Piece (Elt F) S1x4096 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, fun xi3 E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.KI.RunB.lean ====
/-
  The body at a middle row block of a batch (0 < i < 7): it loads the two input blocks, adds this block's sum of row
  minima to the row-sum buffer and folds this block's column minima into the scratch row by a pointwise minimum; the
  column-sum buffer is not touched.
-/
import proofs.«158327_g5248450036649_cont_9to1c4b_658_5_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs, the row-sum buffer and the scratch row at their contents, the column-sum
    buffer at contents handed back untouched: the body runs to the continuation with the inputs as they were and the
    two stored buffers with their pieces written. -/
noncomputable def runB (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) :
    Σ' (L2 : List (View.Piece (Elt F) S1x1x1 .f32)), { LS : List (View.Piece (Elt F) S1x4096 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xo2
            ∗ owns (c : Thread nD τ) arg5 fullShare xi3 ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, fun xi3 E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Hand

end
-- ==== Proof.KI.RunC.lean ====
/-
  The body at the last row block of a batch (i = 7): as at a middle block, and then it loads the finished scratch row
  of column minima back, sums it, and stores the sum into the column-sum buffer.
-/
import proofs.«158327_g5248450036649_cont_9to1c4b_658_5_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs, the inputs, the row-sum buffer and the scratch row at their contents, the column-sum
    buffer at anything: the body runs to the continuation with the inputs as they were and the three stored buffers
    with their pieces written. -/
noncomputable def runC (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) :
    Σ' (L2 : List (View.Piece (Elt F) S1x1x1 .f32)) (L3 : List (View.Piece (Elt F) S1x1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_body i arg2 harg2 arg3 harg3 arg4 harg4 arg5 harg5 arg6 harg6) K } := by
  refine ⟨?_, ?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Hand

end
-- ==== Proof.KI.Frame.lean ====
/-
  The kernel region point by point.  At point t = 8·b + i the row-sum buffer, the column-sum buffer and the scratch
  row of running column minima hold what the body's stores left there: at i = 0 the case "start", afterwards the
  case "fold" over what the point before left, at i = 7 also the finished column sum.  From the three runs of the body:
  what each buffer holds after each point (by recursion on the point), the proof data of the pipeline, the body's
  obligation at every point, the run of the whole program, and the program's frame.
-/
import proofs.«158327_g5248450036649_cont_9to1c4b_658_5_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window and the scratch row, as views through which contents are stated. -/
abbrev VO2 : View sig .tc .vmem S1x1x1 .f32 := (Memref.whole cc0_stg2_0 : Memref sig .tc .vmem S1x1x1 .f32).view
abbrev VO3 : View sig .tc .vmem S1x1x1 .f32 := (Memref.whole cc0_stg3_0 : Memref sig .tc .vmem S1x1x1 .f32).view
abbrev VS : View sig .tc .vmem S1x4096 .f32 := scM.view

/-- The three buffers the kernel carries: row sum, column sum, scratch row. -/
abbrev Outs (F : FTy → Type) : Type := Vec F S1x1x1 .f32 × Vec F S1x1x1 .f32 × Vec F S1x4096 .f32

/-! ## Each case's stores cover the buffers they are made into -/

theorem cover2_A (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) (y : S1x1x1.Idx) :
    ∃ pc ∈ (runA c i arg2 harg2 arg3 harg3 arg4 harg4 arg5 harg5 arg6 harg6 hc1 hc2 hc3 x0 x1).1, y ∈ pc.1.set :=
  View.cover_of_tiledL _ S1x1x1.size (by sl_kernel_rfl) y
theorem scover_A (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : k0_cond1 i = 1#1) (hc2 : ¬k0_cond2 i = 1#1) (hc3 : ¬k0_cond3 i = 1#1)
    (x0 : Vec F S1x8x512 .f32) (x1 : Vec F S1x8x4096 .f32) (y : S1x4096.Idx) :
    ∃ pc ∈ (runA c i arg2 harg2 arg3 harg3 arg4 harg4 arg5 harg5 arg6 harg6 hc1 hc2 hc3 x0 x1).2.1, y ∈ pc.1.set :=
  View.cover_of_tiledL _ S1x4096.size (by sl_kernel_rfl) y
theorem cover2_B (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runB c i arg2 harg2 arg3 harg3 arg4 harg4 arg5 harg5 arg6 harg6 hc1 hc2 hc3 x0 x1 xo2 xs).1, y ∈ pc.1.set :=
  View.cover_of_tiledL _ S1x1x1.size (by sl_kernel_rfl) y
theorem scover_B (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : ¬k0_cond3 i = 1#1)
    (x0 : Vec F S1x8x512 .f32) (x1 : Vec F S1x8x4096 .f32) (xo2 : Vec F S1x1x1 .f32) (xs : Vec F S1x4096 .f32) (y : S1x4096.Idx) :
    ∃ pc ∈ (runB c i arg2 harg2 arg3 harg3 arg4 harg4 arg5 harg5 arg6 harg6 hc1 hc2 hc3 x0 x1 xo2 xs).2.1, y ∈ pc.1.set :=
  View.cover_of_tiledL _ S1x4096.size (by sl_kernel_rfl) y
theorem cover2_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runC c i arg2 harg2 arg3 harg3 arg4 harg4 arg5 harg5 arg6 harg6 hc1 hc2 hc3 x0 x1 xo2 xs).1, y ∈ pc.1.set :=
  View.cover_of_tiledL _ S1x1x1.size (by sl_kernel_rfl) y
theorem cover3_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x1x1.Idx) :
    ∃ pc ∈ (runC c i arg2 harg2 arg3 harg3 arg4 harg4 arg5 harg5 arg6 harg6 hc1 hc2 hc3 x0 x1 xo2 xs).2.1, y ∈ pc.1.set :=
  View.cover_of_tiledL _ S1x1x1.size (by sl_kernel_rfl) y
theorem scover_C (c : Dev nD) (i : grid0.Coords) (arg2 : Memref sig .tc .vmem S1x8x512 .f32) (harg2 : arg2.IsWhole) (arg3 : Memref sig .tc .vmem S1x8x4096 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4096 .f32) (harg6 : arg6.IsWhole) (hc1 : ¬k0_cond1 i = 1#1) (hc2 : k0_cond2 i = 1#1) (hc3 : k0_cond3 i = 1#1)
    (x0 : Vec F S1x8x512 .f32) (x1 : Vec F S1x8x4096 .f32) (xo2 : Vec F S1x1x1 .f32) (xs : Vec F S1x4096 .f32) (y : S1x4096.Idx) :
    ∃ pc ∈ (runC c i arg2 harg2 arg3 harg3 arg4 harg4 arg5 harg5 arg6 harg6 hc1 hc2 hc3 x0 x1 xo2 xs).2.2.1, y ∈ pc.1.set :=
  View.cover_of_tiledL _ S1x4096.size (by sl_kernel_rfl) y

/-! ## What the three buffers hold after a point, case by case -/

/-- After a point with i = 0: the row sum and the scratch row as that case's stores left them (the column-sum
    buffer is idle there: a placeholder nothing consults). -/
def atA (c : Dev nD) (t : Fin cfg0.N) (h0 : t.val % 8 = 0) : Outs F :=
  (VO2.read (Elt F) (VO2.writes (Elt F) VO2.junk (runA c (grid0.coords t) (ms0 t) (hs0 t) (ms1 t) (hs1 t) (ms2 t) (hs2 t) (ms3 t) (hs3 t) scM (Memref.isWhole_whole _) ((hcond1 t).mpr h0) (fun h => (hcond2 t).mp h h0) (fun h => by have := (hcond3 t).mp h; omega) (iblk m c 0 t) (iblk m c 1 t)).1),
   VO3.read (Elt F) VO3.junk,
   VS.read (Elt F) (VS.writes (Elt F) VS.junk (runA c (grid0.coords t) (ms0 t) (hs0 t) (ms1 t) (hs1 t) (ms2 t) (hs2 t) (ms3 t) (hs3 t) scM (Memref.isWhole_whole _) ((hcond1 t).mpr h0) (fun h => (hcond2 t).mp h h0) (fun h => by have := (hcond3 t).mp h; omega) (iblk m c 0 t) (iblk m c 1 t)).2.1))

/-- After a point with 0 < i < 7, over what the point before left. -/
def atB (c : Dev nD) (t : Fin cfg0.N) (h0 : ¬t.val % 8 = 0) (h7 : ¬t.val % 8 = 7) (prev : Outs F) : Outs F :=
  (VO2.read (Elt F) (VO2.writes (Elt F) VO2.junk (runB c (grid0.coords t) (ms0 t) (hs0 t) (ms1 t) (hs1 t) (ms2 t) (hs2 t) (ms3 t) (hs3 t) scM (Memref.isWhole_whole _) (fun h => h0 ((hcond1 t).mp h)) ((hcond2 t).mpr h0) (fun h => h7 ((hcond3 t).mp h)) (iblk m c 0 t) (iblk m c 1 t) prev.1 prev.2.2).1),
   VO3.read (Elt F) VO3.junk,
   VS.read (Elt F) (VS.writes (Elt F) VS.junk (runB c (grid0.coords t) (ms0 t) (hs0 t) (ms1 t) (hs1 t) (ms2 t) (hs2 t) (ms3 t) (hs3 t) scM (Memref.isWhole_whole _) (fun h => h0 ((hcond1 t).mp h)) ((hcond2 t).mpr h0) (fun h => h7 ((hcond3 t).mp h)) (iblk m c 0 t) (iblk m c 1 t) prev.1 prev.2.2).2.1))

/-- After a point with i = 7, over what the point before left: all three buffers stored. -/
def atC (c : Dev nD) (t : Fin cfg0.N) (h0 : ¬t.val % 8 = 0) (h7 : t.val % 8 = 7) (prev : Outs F) : Outs F :=
  (VO2.read (Elt F) (VO2.writes (Elt F) VO2.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).1),
   VO3.read (Elt F) (VO3.writes (Elt F) VO3.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).2.1),
   VS.read (Elt F) (VS.writes (Elt F) VS.junk (runC c (grid0.coords t) (ms0 t) (hs0 t) (ms1 t) (hs1 t) (ms2 t) (hs2 t) (ms3 t) (hs3 t) scM (Memref.isWhole_whole _) (fun h => h0 ((hcond1 t).mp h)) ((hcond2 t).mpr h0) ((hcond3 t).mpr h7) (iblk m c 0 t) (iblk m c 1 t) prev.1 prev.2.2).2.2.1))

/-- THE ACCUMULATION: the three buffers after the point at position n, by recursion on n. -/
def outsAt (c : Dev nD) : (n : ℕ) → n < cfg0.N → Outs F
  | 0, hn => atA m c ⟨0, hn⟩ (Nat.zero_mod _)
  | n + 1, hn =>
    if h0 : (n + 1) % 8 = 0 then atA m c ⟨n + 1, hn⟩ h0
    else if h7 : (n + 1) % 8 = 7 then atC m c ⟨n + 1, hn⟩ h0 h7 (outsAt c n (Nat.lt_of_succ_lt hn))
    else atB m c ⟨n + 1, hn⟩ h0 h7 (outsAt c n (Nat.lt_of_succ_lt hn))

theorem outsAt_A (c : Dev nD) (t : Fin cfg0.N) (h0 : t.val % 8 = 0) : outsAt m c t.val t.isLt = atA m c t h0 := by
  obtain ⟨n, hn⟩ := t
  cases n with
  | zero => exact rfl
  | succ n => exact (dif_pos h0).trans rfl

theorem outsAt_B (c : Dev nD) (t : Fin cfg0.N) (h0 : ¬t.val % 8 = 0) (h7 : ¬t.val % 8 = 7) :
    outsAt m c t.val t.isLt = atB m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem outsAt_C (c : Dev nD) (t : Fin cfg0.N) (h0 : ¬t.val % 8 = 0) (h7 : t.val % 8 = 7) :
    outsAt m c t.val t.isLt = atC m c t h0 h7 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- The region's invariant before position n: before the first point the scratch row at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

/-- The arrays as the region finds them; after the body at point t each input's buffer at its block, the two
    outputs' at the accumulation; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- One of "i = 0" and "i > 0" holds at every grid point, so the row-sum window is never idle. -/
theorem live2_all : ∀ i : grid0.Coords, cfg0.idle 2 i = false := by decide +kernel

/-- Inside a batch (i > 0) the row-sum buffer holds what the point before left: it was not written back between. -/
theorem before2 (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    live2_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare ((outsAt m c t.val t.isLt).1) := by
  unfold Dat.leavesExact; rw [live2 t, after2]
theorem leaves3_live (c : Dev nD) (t : Fin cfg0.N) (h7 : t.val % 8 = 7) :
    (dats m 0 c).leavesExact 3 t = owns (c : Thread nD τ) (ms3 t) fullShare ((outsAt m c t.val t.isLt).2.1) := by
  unfold Dat.leavesExact; rw [live3 t h7, after3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 8 = 0
  · have h7 : ¬t.val % 8 = 7 := by omega
    rw [Dat.leavesExact_idle (dats m 0 c) 3 t (idle3 t h7) (noFlush3 t h7)]
    rw [outsAt_A m c t h0]
    unfold atA; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hcond1 t).mpr h0) (fun h => (hcond2 t).mp h h0) (fun h => by have := (hcond3 t).mp h; omega) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_A c _ _ _ _ _ _ _ _ _ _ _ _ _ _ _ _)
      iexists _; iexact H3
  · have hz : t.val ≠ 0 := fun h => h0 (by rw [h])
    simp only [before2 m c t h0]
    rw [PhiS_castSucc m c t, PhiS_pos m c _ _ hz]
    by_cases h7 : t.val % 8 = 7
    · rw [leaves3_live m c t h7]
      rw [outsAt_C m c t h0 h7]
      unfold atC; dsimp only
      iintro ⟨⟨HS, Hg⟩, Ho, ⟨%d0, H0⟩, ⟨%d1, H1⟩, ⟨%d2, H2⟩, ⟨%d3, H3⟩⟩
      iapply ((runC c (grid0.coords t) _ _ _ _ _ _ _ _ _ _ (fun h => h0 ((hcond1 t).mp h)) ((hcond2 t).mpr h0) ((hcond3 t).mpr h7) (iblk m c 0 t) (iblk m c 1 t) _ _).2.2.2 Set.univ _)
      isplitl [H0]; · iexact H0
      isplitl [H1]; · iexact H1
      isplitl [H2]; · iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _ _ _ _)
    · rw [Dat.leavesExact_idle (dats m 0 c) 3 t (idle3 t h7) (noFlush3 t h7)]
      rw [outsAt_B m c t h0 h7]
      unfold atB; dsimp only
      iintro ⟨⟨HS, Hg⟩, Ho, ⟨%d0, H0⟩, ⟨%d1, H1⟩, ⟨%d2, H2⟩, ⟨%d3, H3⟩⟩
      iapply ((runB c (grid0.coords t) _ _ _ _ _ _ _ _ _ _ (fun h => h0 ((hcond1 t).mp h)) ((hcond2 t).mpr h0) (fun h => h7 ((hcond3 t).mp h)) (iblk m c 0 t) (iblk m c 1 t) _ _).2.2 _ Set.univ _)
      isplitl [H0]; · iexact H0
      isplitl [H1]; · iexact H1
      isplitl [H2]; · iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _ _ _ _)
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates; every final state has each array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program's frame: it runs to the end, faults nowhere, and leaves both point clouds as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What each buffer holds after each case of the body: every buffer is stored whole exactly once per case, so reading
  the stores back gives that store's value, a named pure function of the body's loads.
-/
import proofs.«158327_g5248450036649_cont_9to1c4b_658_5_alg».proof.Proof.KI.Frame
import Idealize.ShloMosaic.Lib.Pipeline.Value
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg2 : Memref sig .tc .vmem S1x8x512 .f32) (harg2 : arg2.IsWhole)
  (arg3 : Memref sig .tc .vmem S1x8x4096 .f32) (harg3 : arg3.IsWhole) (arg4 : Memref sig .tc .vmem S1x1x1 .f32) (harg4 : arg4.IsWhole)
  (arg5 : Memref sig .tc .vmem S1x1x1 .f32) (harg5 : arg5.IsWhole) (arg6 : Memref sig .tc .vmem S1x4096 .f32) (harg6 : arg6.IsWhole)
  (x0 : Vec F S1x8x512 .f32) (x1 : Vec F S1x8x4096 .f32) (xo2 : Vec F S1x1x1 .f32) (xs : Vec F S1x4096 .f32)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The case i = 0 -/

/-- The row-sum buffer after the case i = 0: this block's sum of row minima. -/
theorem runA_2 (hc1 : k0_cond1 i = 1#1) (hc2 : ¬k0_cond2 i = 1#1) (hc3 : ¬k0_cond3 i = 1#1) :
    VO2.read (Elt F) (VO2.writes (Elt F) VO2.junk (runA c i arg2 harg2 arg3 harg3 arg4 harg4 arg5 harg5 arg6 harg6 hc1 hc2 hc3 x0 x1).1) = k0_pay4 x0 x1 := by
  rw [View.read_writes_eq_canon _ _ _ (cover2_A c i arg2 harg2 arg3 harg3 arg4 harg4 arg5 harg5 arg6 harg6 hc1 hc2 hc3 x0 x1)]
  unfold runA
  dsimp only
  sl_unfold_words
  rw [View.canon_unit_zero (S := S1x1x1) hz3]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-- The scratch row after the case i = 0: this block's column minima. -/
theorem runA_s (hc1 : k0_cond1 i = 1#1) (hc2 : ¬k0_cond2 i = 1#1) (hc3 : ¬k0_cond3 i = 1#1) :
    VS.read (Elt F) (VS.writes (Elt F) VS.junk (runA c i arg2 harg2 arg3 harg3 arg4 harg4 arg5 harg5 arg6 harg6 hc1 hc2 hc3 x0 x1).2.1) = k0_pay5 x0 x1 := by
  rw [View.read_writes_eq_canon _ _ _ (scover_A c i arg2 harg2 arg3 harg3 arg4 harg4 arg5 harg5 arg6 harg6 hc1 hc2 hc3 x0 x1)]
  unfold runA
  dsimp only
  sl_unfold_words
  rw [View.canon_unit_zero (S := S1x4096) hz2]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-! ## The case 0 < i < 7 -/

/-- The row-sum buffer after a middle case: what it held plus this block's sum of row minima. -/
theorem runB_2 (hc1 : ¬k0_cond1 i = 1#1) (hc2 : k0_cond2 i = 1#1) (hc3 : ¬k0_cond3 i = 1#1) :
    VO2.read (Elt F) (VO2.writes (Elt F) VO2.junk (runB c i arg2 harg2 arg3 harg3 arg4 harg4 arg5 harg5 arg6 harg6 hc1 hc2 hc3 x0 x1 xo2 xs).1) = k0_pay6 x0 x1 xo2 := by
  rw [View.read_writes_eq_canon _ _ _ (cover2_B c i arg2 harg2 arg3 harg3 arg4 harg4 arg5 harg5 arg6 harg6 hc1 hc2 hc3 x0 x1 xo2 xs)]
  unfold runB
  dsimp only
  sl_unfold_words
  rw [View.canon_unit_zero (S := S1x1x1) hz3]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-- The scratch row after a middle case: the least of what it held and this block's column minima. -/
theorem runB_s (hc1 : ¬k0_cond1 i = 1#1) (hc2 : k0_cond2 i = 1#1) (hc3 : ¬k0_cond3 i = 1#1) :
    VS.read (Elt F) (VS.writes (Elt F) VS.junk (runB c i arg2 harg2 arg3 harg3 arg4 harg4 arg5 harg5 arg6 harg6 hc1 hc2 hc3 x0 x1 xo2 xs).2.1) = k0_pay7 x0 x1 xs := by
  rw [View.read_writes_eq_canon _ _ _ (scover_B c i arg2 harg2 arg3 harg3 arg4 harg4 arg5 harg5 arg6 harg6 hc1 hc2 hc3 x0 x1 xo2 xs)]
  unfold runB
  dsimp only
  sl_unfold_words
  rw [View.canon_unit_zero (S := S1x4096) hz2]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-! ## The case i = 7 -/

/-- The row-sum buffer after the last case of a batch: what it held plus this block's sum of row minima. -/
theorem runC_2 (hc1 : ¬k0_cond1 i = 1#1) (hc2 : k0_cond2 i = 1#1) (hc3 : k0_cond3 i = 1#1) :
    VO2.read (Elt F) (VO2.writes (Elt F) VO2.junk (runC c i arg2 harg2 arg3 harg3 arg4 harg4 arg5 harg5 arg6 harg6 hc1 hc2 hc3 x0 x1 xo2 xs).1) = k0_pay6 x0 x1 xo2 := by
  rw [View.read_writes_eq_canon _ _ _ (cover2_C c i arg2 harg2 arg3 harg3 arg4 harg4 arg5 harg5 arg6 harg6 hc1 hc2 hc3 x0 x1 xo2 xs)]
  unfold runC
  dsimp only
  sl_unfold_words
  rw [View.canon_unit_zero (S := S1x1x1) hz3]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-- The column-sum buffer after the last case of a batch: the sum of the finished scratch row, loaded back after
    its store. -/
theorem runC_3 (hc1 : ¬k0_cond1 i = 1#1) (hc2 : k0_cond2 i = 1#1) (hc3 : k0_cond3 i = 1#1) :
    VO3.read (Elt F) (VO3.writes (Elt F) VO3.junk (runC c i arg2 harg2 arg3 harg3 arg4 harg4 arg5 harg5 arg6 harg6 hc1 hc2 hc3 x0 x1 xo2 xs).2.1) = k0_pay8 (k0_pay7 x0 x1 xs) := by
  rw [View.read_writes_eq_canon _ _ _ (cover3_C c i arg2 harg2 arg3 harg3 arg4 harg4 arg5 harg5 arg6 harg6 hc1 hc2 hc3 x0 x1 xo2 xs)]
  unfold runC
  dsimp only
  sl_unfold_words
  rw [View.canon_unit_zero (S := S1x1x1) hz3, View.readCov_unit_zero (S := S1x4096) _ hz2]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-- The scratch row after the last case of a batch: the least of what it held and this block's column minima. -/
theorem runC_s (hc1 : ¬k0_cond1 i = 1#1) (hc2 : k0_cond2 i = 1#1) (hc3 : k0_cond3 i = 1#1) :
    VS.read (Elt F) (VS.writes (Elt F) VS.junk (runC c i arg2 harg2 arg3 harg3 arg4 harg4 arg5 harg5 arg6 harg6 hc1 hc2 hc3 x0 x1 xo2 xs).2.2.1) = k0_pay7 x0 x1 xs := by
  rw [View.read_writes_eq_canon _ _ _ (scover_C c i arg2 harg2 arg3 harg3 arg4 harg4 arg5 harg5 arg6 harg6 hc1 hc2 hc3 x0 x1 xo2 xs)]
  unfold runC
  dsimp only
  sl_unfold_words
  rw [View.canon_unit_zero (S := S1x4096) hz2]
  simp only [View.readAt_eq_ld, harg2.read_unread, harg3.read_unread, harg4.read_unread, harg5.read_unread, harg6.read_unread,
    View.ld_unit_zero (S := S1x8x512) hz3, View.ld_unit_zero (S := S1x8x4096) hz3, View.ld_unit_zero (S := S1x1x1) hz3,
    View.ld_unit_zero (S := S1x4096) hz2, shapeCast_self]

/-! ## The three buffers after a point, as the named values -/

/-- After a point with i = 0. -/
theorem atA_eq (c : Dev nD) (t : Fin cfg0.N) (h0 : t.val % 8 = 0) :
    atA m c t h0 = (k0_pay4 (iblk m c 0 t) (iblk m c 1 t), VO3.read (Elt F) VO3.junk, k0_pay5 (iblk m c 0 t) (iblk m c 1 t)) := by
  unfold atA
  rw [runA_2, runA_s]

/-- After a point with 0 < i < 7, over what the point before left. -/
theorem atB_eq (c : Dev nD) (t : Fin cfg0.N) (h0 : ¬t.val % 8 = 0) (h7 : ¬t.val % 8 = 7) (prev : Outs F) :
    atB m c t h0 h7 prev = (k0_pay6 (iblk m c 0 t) (iblk m c 1 t) prev.1, VO3.read (Elt F) VO3.junk,
      k0_pay7 (iblk m c 0 t) (iblk m c 1 t) prev.2.2) := by
  unfold atB
  rw [runB_2, runB_s]

/-- After a point with i = 7, over what the point before left. -/
theorem atC_eq (c : Dev nD) (t : Fin cfg0.N) (h0 : ¬t.val % 8 = 0) (h7 : t.val % 8 = 7) (prev : Outs F) :
    atC m c t h0 h7 prev = (k0_pay6 (iblk m c 0 t) (iblk m c 1 t) prev.1,
      k0_pay8 (k0_pay7 (iblk m c 0 t) (iblk m c 1 t) prev.2.2),
      k0_pay7 (iblk m c 0 t) (iblk m c 1 t) prev.2.2) := by
  unfold atC
  rw [runC_2, runC_3, runC_s]

end Cert.KernelIdeal.Hand

end
-- ==== Proof.Spec.lean ====
/-
  The two numbers both programs compute, as functions of the two point clouds.

  For clouds X, Y : [4, 4096, 3] the clamped squared distance of point n of X and point m of Y in batch b is
    dist b n m = max ((|X b n|² + |Y b m|²) − 2 · ⟨X b n, Y b m⟩) 0
  on the extended reals; the first result is the mean over (b, n) of the least dist b n · over m, the second the
  mean over (b, m) of the least dist b · m over n.  The float words (2, 0, +inf, 16384) are kept as words: the same
  word stands on both sides and is never evaluated.
-/
import Idealize.ShloMosaic.PureOps.Ideal
import Idealize.ShloMosaic.Lib.ValueIdx

noncomputable section

namespace Chamfer

open Idealize.ShloMosaic Idealize.ShloMosaic.ValueIdx

/-- The shape of a point cloud argument. -/
abbrev SArg : Shape := ⟨3, ![4, 4096, 3]⟩

/-- The words of the four float constants. -/
def two : EReal := Ideal.ofBits .f32 0x40000000#32
def zero : EReal := Ideal.ofBits .f32 0x00000000#32
def inf : EReal := Ideal.ofBits .f32 0x7F800000#32
def count : EReal := Ideal.ofBits .f32 0x46800000#32

/-- Coordinate k of point n of batch b. -/
def pt (X : SArg.Idx → EReal) (b : Fin 4) (n : Fin 4096) (k : Fin 3) : EReal := X (ix3 b n k)

/-- The squared norm of a point. -/
def sq (X : SArg.Idx → EReal) (b : Fin 4) (n : Fin 4096) : EReal := ∑ k : Fin 3, pt X b n k * pt X b n k

/-- The inner product of a point of X with a point of Y. -/
def inner (X Y : SArg.Idx → EReal) (b : Fin 4) (n m : Fin 4096) : EReal := ∑ k : Fin 3, pt X b n k * pt Y b m k

/-- The clamped squared distance. -/
def dist (X Y : SArg.Idx → EReal) (b : Fin 4) (n m : Fin 4096) : EReal :=
  max ((sq X b n + sq Y b m) - two * inner X Y b n m) zero

/-- The least distance from point n of X to a point of Y. -/
def near1 (X Y : SArg.Idx → EReal) (b : Fin 4) (n : Fin 4096) : EReal :=
  (Finset.univ : Finset (Fin 4096)).fold min inf (fun m => dist X Y b n m)

/-- The least distance from point m of Y to a point of X. -/
def near2 (X Y : SArg.Idx → EReal) (b : Fin 4) (m : Fin 4096) : EReal :=
  (Finset.univ : Finset (Fin 4096)).fold min inf (fun n => dist X Y b n m)

/-- The first result: the mean of near1. -/
def out1 (X Y : SArg.Idx → EReal) : EReal := Ideal.div (∑ b : Fin 4, ∑ n : Fin 4096, near1 X Y b n) count

/-- The second result: the mean of near2. -/
def out2 (X Y : SArg.Idx → EReal) : EReal := Ideal.div (∑ b : Fin 4, ∑ m : Fin 4096, near2 X Y b m) count

end Chamfer

end
-- ==== Proof.KI.Blocks.lean ====
/-
  What the kernel region finds staged.  Each cloud [4, 4096, 3] is transposed to [4, 3, 4096] and padded on axis 1 with
  five rows of zeros to [4, 8, 4096].  At grid point t = 8·b + i the first window holds columns [512·i, 512·i + 512)
  of batch b of the first padded array, a [1, 8, 512] block, and the second window all of batch b of the second,
  a [1, 8, 4096] block.  Here: both padded arrays and both blocks read at an index, as coordinate k < 3 of a point
  of a cloud or zero, and the sum over the eight rows of a product of two such columns as the sum over three.
-/
import proofs.«158327_g5248450036649_cont_9to1c4b_658_5_alg».proof.Proof.KI.Base
import proofs.«158327_g5248450036649_cont_9to1c4b_658_5_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The first cloud as launched, `[4, 4096, 3]`. -/
abbrev X : S4x4096x3.Idx → EReal := m ((c : Thread nD τ).loc main_arg0)
/-- The second cloud as launched, `[4, 4096, 3]`. -/
abbrev Y : S4x4096x3.Idx → EReal := m ((c : Thread nD τ).loc main_arg1)

/-- The integer zero converted is the float zero: the value the padding writes. -/
theorem padValue_eq_zero :
    (sitofp (F := Ideal) .f32 (constantI S_ 32 0#32) : S_.Idx → EReal) (Shape.Idx.first h_S_) = 0 := by
  rw [sitofp_apply, constantI_apply]
  exact sitofp_zero

/-- A cloud transposed to coordinate-major and padded with five zero rows, read at (b, k, n): coordinate k of point n
    of batch b for k < 3, zero on the five added rows. -/
theorem padT_apply (x : S4x4096x3.Idx → EReal) (b : Fin 4) (k : Fin 8) (n : Fin 4096) :
    pad S4x8x4096 ![0, 0, 0] ![0, 5, 0] ![0, 0, 0]
        (transpose S4x3x4096 [0, 2, 1] x transposes_S4x4096x3_S4x3x4096_0_2_1)
        (sitofp (F := Ideal) .f32 (constantI S_ 32 0#32)) pads_S4x3x4096_S4x8x4096_000_050_000 h_S_ (ix3 b k n)
      = if h : k.val < 3 then x (ix3 b n ⟨k.val, h⟩) else 0 := by
  by_cases h : k.val < 3
  · rw [dif_pos h]
    refine (pad_apply_of_inside _ _ _ _ _ _ _ (ix3 b k n) (ix3 b ⟨k.val, h⟩ n) (fun a => ?_)).trans
      (transpose_ix3_021_apply x _ b ⟨k.val, h⟩ n)
    match a with
    | ⟨0, _⟩ => show b.val = 0 + b.val * (0 + 1); omega
    | ⟨1, _⟩ => show k.val = 0 + k.val * (0 + 1); omega
    | ⟨2, _⟩ => show n.val = 0 + n.val * (0 + 1); omega
  · rw [dif_neg h]
    refine (pad_apply_of_not_inside _ _ _ _ _ _ _ (ix3 b k n) (1 : Fin 3) ?_).trans padValue_eq_zero
    show ¬ (0 ≤ k.val ∧ (k.val - 0) % (0 + 1) = 0 ∧ (k.val - 0) / (0 + 1) < 3)
    omega

/-- The first staged array is the first cloud transposed and padded. -/
theorem V_v1_eq : (Gen.V m c main_v1 : S4x8x4096.Idx → EReal)
    = pad S4x8x4096 ![0, 0, 0] ![0, 5, 0] ![0, 0, 0]
        (transpose S4x3x4096 [0, 2, 1] (X m c) transposes_S4x4096x3_S4x3x4096_0_2_1)
        (sitofp (F := Ideal) .f32 (constantI S_ 32 0#32)) pads_S4x3x4096_S4x8x4096_000_050_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The second staged array is the second cloud transposed and padded. -/
theorem V_v3_eq : (Gen.V m c main_v3 : S4x8x4096.Idx → EReal)
    = pad S4x8x4096 ![0, 0, 0] ![0, 5, 0] ![0, 0, 0]
        (transpose S4x3x4096 [0, 2, 1] (Y m c) transposes_S4x4096x3_S4x3x4096_0_2_1)
        (sitofp (F := Ideal) .f32 (constantI S_ 32 0#32)) pads_S4x3x4096_S4x8x4096_000_050_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The first staged array at (b, k, n): coordinate k of point n of batch b of the first cloud, zero for k ≥ 3. -/
theorem V_v1_apply (b : Fin 4) (k : Fin 8) (n : Fin 4096) :
    Gen.V m c main_v1 (ix3 b k n) = if h : k.val < 3 then X m c (ix3 b n ⟨k.val, h⟩) else 0 := by
  rw [V_v1_eq]; exact padT_apply (X m c) b k n

/-- The second staged array at (b, k, n): coordinate k of point n of batch b of the second cloud, zero for k ≥ 3. -/
theorem V_v3_apply (b : Fin 4) (k : Fin 8) (n : Fin 4096) :
    Gen.V m c main_v3 (ix3 b k n) = if h : k.val < 3 then Y m c (ix3 b n ⟨k.val, h⟩) else 0 := by
  rw [V_v3_eq]; exact padT_apply (Y m c) b k n

/-- A grid point is below 32. -/
theorem point_lt (t : Fin cfg0.N) : t.val < 32 := lt_of_lt_of_eq t.isLt N_0

/-- The batch b of grid point t = 8·b + i. -/
abbrev batchOf (t : Fin cfg0.N) : Fin 4 := ⟨t.val / 8, by have := point_lt t; omega⟩

/-- Row r of row block i of grid point t = 8·b + i, as a point number: 512·i + r. -/
abbrev rowOf (t : Fin cfg0.N) (r : Fin 512) : Fin 4096 :=
  ⟨512 * (t.val % 8) + r.val, by have := r.isLt; omega⟩

/-- The first window's block index at point t = 8·b + i is (b, 0, i). -/
theorem index0 : ∀ t : Fin cfg0.N, win0_0.index t (0 : Fin 3) = t.val / 8 ∧ win0_0.index t (1 : Fin 3) = 0
    ∧ win0_0.index t (2 : Fin 3) = t.val % 8 :=
  (by decide +kernel : ∀ t : Fin grid0.N, win0_0.index t (0 : Fin 3) = t.val / 8 ∧ win0_0.index t (1 : Fin 3) = 0
    ∧ win0_0.index t (2 : Fin 3) = t.val % 8)

/-- The second window's block index at point t = 8·b + i is (b, 0, 0). -/
theorem index1 : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

/-- The first window's block at point t = 8·b + i, at (0, k, r): the first staged array at (b, k, 512·i + r). -/
theorem blk0_apply (t : Fin cfg0.N) (k : Fin 8) (r : Fin 512) :
    Gen.iblk m c 0 t (ix3 0 k r) = Gen.V m c main_v1 (ix3 (batchOf t) k (rowOf t r)) := by
  obtain ⟨e0, e1, e2⟩ := index0 t
  unfold Gen.iblk
  show Gen.V m c main_v1 (((cfg0.win 0).blk t).view.emb (ix3 0 k r)) = _
  refine congrArg (Gen.V m c main_v1) (funext fun a => Fin.ext ?_)
  match a with
  | ⟨0, _⟩ => show win0_0.index t (0 : Fin 3) * 1 + 1 * 0 = t.val / 8; omega
  | ⟨1, _⟩ => show win0_0.index t (1 : Fin 3) * 8 + 1 * k.val = k.val; omega
  | ⟨2, _⟩ => show win0_0.index t (2 : Fin 3) * 512 + 1 * r.val = 512 * (t.val % 8) + r.val; omega

/-- The second window's block at point t = 8·b + i, at (0, k, n): the second staged array at (b, k, n). -/
theorem blk1_apply (t : Fin cfg0.N) (k : Fin 8) (n : Fin 4096) :
    Gen.iblk m c 1 t (ix3 0 k n) = Gen.V m c main_v3 (ix3 (batchOf t) k n) := by
  obtain ⟨e0, e1, e2⟩ := index1 t
  unfold Gen.iblk
  show Gen.V m c main_v3 (((cfg0.win 1).blk t).view.emb (ix3 0 k n)) = _
  refine congrArg (Gen.V m c main_v3) (funext fun a => Fin.ext ?_)
  match a with
  | ⟨0, _⟩ => show win0_1.index t (0 : Fin 3) * 1 + 1 * 0 = t.val / 8; omega
  | ⟨1, _⟩ => show win0_1.index t (1 : Fin 3) * 8 + 1 * k.val = k.val; omega
  | ⟨2, _⟩ => show win0_1.index t (2 : Fin 3) * 4096 + 1 * n.val = n.val; omega

open scoped BigOperators

/-- Over eight rows of which only the first three are not zero, the sum of the products is the sum over the three. -/
theorem sum8_pad3 (a b : Fin 3 → EReal) :
    ∑ k : Fin 8, (if h : k.val < 3 then a ⟨k.val, h⟩ else 0) * (if h : k.val < 3 then b ⟨k.val, h⟩ else 0)
      = ∑ k : Fin 3, a k * b k := by
  rw [Fin.sum_univ_eight, Fin.sum_univ_three]
  simp

/-- The first window's block at point t = 8·b + i, at (0, k, r): coordinate k of point 512·i + r of batch b of the
    first cloud for k < 3, zero on the five added rows. -/
theorem blk0_entry (t : Fin cfg0.N) (k : Fin 8) (r : Fin 512) :
    Gen.iblk m c 0 t (ix3 0 k r)
      = if h : k.val < 3 then X m c (ix3 (batchOf t) (rowOf t r) ⟨k.val, h⟩) else 0 :=
  (blk0_apply m c t k r).trans (V_v1_apply m c (batchOf t) k (rowOf t r))

/-- The second window's block at point t = 8·b + i, at (0, k, n): coordinate k of point n of batch b of the second
    cloud for k < 3, zero on the five added rows. -/
theorem blk1_entry (t : Fin cfg0.N) (k : Fin 8) (n : Fin 4096) :
    Gen.iblk m c 1 t (ix3 0 k n)
      = if h : k.val < 3 then Y m c (ix3 (batchOf t) n ⟨k.val, h⟩) else 0 :=
  (blk1_apply m c t k n).trans (V_v3_apply m c (batchOf t) k n)

/-- The first window's block at point t, as a function on [1, 8, 512] with values in the extended reals. -/
abbrev B0 (t : Fin cfg0.N) : S1x8x512.Idx → EReal := Gen.iblk m c 0 t
/-- The second window's block at point t, as a function on [1, 8, 4096] with values in the extended reals. -/
abbrev B1 (t : Fin cfg0.N) : S1x8x4096.Idx → EReal := Gen.iblk m c 1 t

/-- The first block at (0, k, r), the value an extended real: coordinate k of point 512·i + r of batch b, or zero. -/
theorem B0_apply (t : Fin cfg0.N) (k : Fin 8) (r : Fin 512) :
    B0 m c t (ix3 0 k r) = if h : k.val < 3 then X m c (ix3 (batchOf t) (rowOf t r) ⟨k.val, h⟩) else 0 :=
  blk0_entry m c t k r

/-- The second block at (0, k, n), the value an extended real: coordinate k of point n of batch b, or zero. -/
theorem B1_apply (t : Fin cfg0.N) (k : Fin 8) (n : Fin 4096) :
    B1 m c t (ix3 0 k n) = if h : k.val < 3 then Y m c (ix3 (batchOf t) n ⟨k.val, h⟩) else 0 :=
  blk1_entry m c t k n

/-- Summed over the eight rows, the squares of column r of the first block are the squared norm of point 512·i + r of
    batch b of the first cloud. -/
theorem sum8_blk0_sq (t : Fin cfg0.N) (r : Fin 512) :
    ∑ k : Fin 8, B0 m c t (ix3 0 k r) * B0 m c t (ix3 0 k r) = Chamfer.sq (X m c) (batchOf t) (rowOf t r) := by
  refine (Finset.sum_congr rfl fun k _ =>
    congrArg₂ (fun x y : EReal => x * y) (B0_apply m c t k r) (B0_apply m c t k r)).trans ?_
  exact sum8_pad3 (fun k => X m c (ix3 (batchOf t) (rowOf t r) k)) (fun k => X m c (ix3 (batchOf t) (rowOf t r) k))

/-- Summed over the eight rows, the squares of column n of the second block are the squared norm of point n of batch b
    of the second cloud. -/
theorem sum8_blk1_sq (t : Fin cfg0.N) (n : Fin 4096) :
    ∑ k : Fin 8, B1 m c t (ix3 0 k n) * B1 m c t (ix3 0 k n) = Chamfer.sq (Y m c) (batchOf t) n := by
  refine (Finset.sum_congr rfl fun k _ =>
    congrArg₂ (fun x y : EReal => x * y) (B1_apply m c t k n) (B1_apply m c t k n)).trans ?_
  exact sum8_pad3 (fun k => Y m c (ix3 (batchOf t) n k)) (fun k => Y m c (ix3 (batchOf t) n k))

/-- Summed over the eight rows, the products of column r of the first block and column n of the second are the inner
    product of point 512·i + r of the first cloud and point n of the second, in batch b. -/
theorem sum8_blk01_inner (t : Fin cfg0.N) (r : Fin 512) (n : Fin 4096) :
    ∑ k : Fin 8, B0 m c t (ix3 0 k r) * B1 m c t (ix3 0 k n)
      = Chamfer.inner (X m c) (Y m c) (batchOf t) (rowOf t r) n := by
  refine (Finset.sum_congr rfl fun k _ =>
    congrArg₂ (fun x y : EReal => x * y) (B0_apply m c t k r) (B1_apply m c t k n)).trans ?_
  exact sum8_pad3 (fun k => X m c (ix3 (batchOf t) (rowOf t r) k)) (fun k => Y m c (ix3 (batchOf t) n k))

end Cert.KernelIdeal.Blocks

end
-- ==== Proof.Payloads.lean ====
/-
  The kernel body's arithmetic, read index by index on the extended reals.

  For the two loaded blocks x0 : [1, 8, 512] and x1 : [1, 8, 4096] (eight coordinate rows, the points along the lanes)
  the body forms d r m = max ((|x0 · r|² + |x1 · m|²) − 2 · ⟨x0 · r, x1 · m⟩) 0, its least value over r for each m,
  the sum over r of its least value over m, and the accumulations of these into the result blocks.
-/
import proofs.«158327_g5248450036649_cont_9to1c4b_658_5_alg».proof.Proof.Gen.KernelIdeal.Skeleton
import proofs.«158327_g5248450036649_cont_9to1c4b_658_5_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Chamfer.Pay

open Idealize.ShloMosaic Idealize.ShloMosaic.ValueIdx
open Cert.KernelIdeal Cert.KernelIdeal.Gen

/-! ## Layout operations in column form -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a result index `j` of a reduction of a matrix along its rows, the source index with row `k` is `(k, j)`. -/
theorem lift0_ix1 {a b : ℕ} (h : (⟨2, ![a, b]⟩ : Shape).Reduces [0] ⟨1, ![b]⟩) (j : Fin b) (k : Fin a) :
    h.lift (ix1 j) k = ix2 k j := by
  funext c
  apply Fin.ext
  match c with
  | ⟨0, _⟩ => rfl
  | ⟨1, _⟩ => rfl

/-- Over a result index `i` of a reduction of a matrix along its columns, the source index with column `k` is `(i, k)`. -/
theorem lift1_ix1 {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

end Layout

/-! ## The three sums of the distance -/

/-- The squared norms: a sum down the eight rows of the block's squares, read at a lane. -/
theorem colsq_apply {n : ℕ} (x : Vec Ideal ⟨3, ![1, 8, n]⟩ .f32) (hc : (⟨3, ![1, 8, n]⟩ : Shape).ShapeCasts ⟨2, ![8, n]⟩)
    (h : (⟨2, ![8, n]⟩ : Shape).Reduces [0] ⟨1, ![n]⟩) (hφ : FKind.Formats FTy.f32)
    (hacc : (0x00000000#32 : BitVec FTy.f32.bits) = FKind.add.neutral .f32 hφ) (j : Fin n) :
    multiReduction (F := Ideal) .add [0] ⟨1, ![n]⟩ (mulf (shapeCast ⟨2, ![8, n]⟩ x hc) (shapeCast ⟨2, ![8, n]⟩ x hc))
        0x00000000#32 h hφ hacc (ix1 j)
      = ∑ k : Fin 8, x (ix3 (0 : Fin 1) k j) * x (ix3 (0 : Fin 1) k j) := by
  refine (Ideal.multiReduction_add_single _ _ h hφ hacc (ix1 j)).trans ?_
  refine Finset.sum_congr rfl fun k _ => ?_
  refine (congrArg _ (lift0_ix1 h j k)).trans ?_
  exact congrArg₂ (· * ·) (shapeCast_1ab_ab_apply x hc k j) (shapeCast_1ab_ab_apply x hc k j)

/-- The block product's left operand index keeps the result's row on its lane axis. -/
theorem gram_lhs1 (i : S512x4096.Idx) (q : dot_S8x512_S8x4096_S512x4096_0_0_1_1_n_n.contr.Idx) :
    (dot_S8x512_S8x4096_S512x4096_0_0_1_1_n_n.lhsIdx i q 1).val = (i 0).val := by
  unfold DotDims.lhsIdx
  rw [dif_neg (show ¬(1 : Fin S8x512.rank) ∈ dot_S8x512_S8x4096_S512x4096_0_0_1_1_n_n.lhsBatch by decide),
    dif_pos (show (1 : Fin S8x512.rank) ∈ dot_S8x512_S8x4096_S512x4096_0_0_1_1_n_n.lhsNonContracting by decide)]
  rfl

/-- Its right operand index keeps the result's column on its lane axis. -/
theorem gram_rhs1 (i : S512x4096.Idx) (q : dot_S8x512_S8x4096_S512x4096_0_0_1_1_n_n.contr.Idx) :
    (dot_S8x512_S8x4096_S512x4096_0_0_1_1_n_n.rhsIdx i q 1).val = (i 1).val := by
  unfold DotDims.rhsIdx
  rw [dif_neg (show ¬(1 : Fin S8x4096.rank) ∈ dot_S8x512_S8x4096_S512x4096_0_0_1_1_n_n.rhsBatch by decide),
    dif_pos (show (1 : Fin S8x4096.rank) ∈ dot_S8x512_S8x4096_S512x4096_0_0_1_1_n_n.rhsNonContracting by decide)]
  rfl

/-- The inner products: the block product contracts the eight rows of both blocks into a zero accumulator. -/
theorem gram_apply (a : FVec Ideal S8x512 .f32) (b : FVec Ideal S8x4096 .f32) (r : Fin 512) (m : Fin 4096) :
    matmul (F := Ideal) dot_S8x512_S8x4096_S512x4096_0_0_1_1_n_n none a b (constant (F := Ideal) S512x4096 .f32 0x00000000#32) (ix2 r m)
      = ∑ k : Fin 8, a (ix2 k r) * b (ix2 k m) := by
  refine (Ideal.matmul_constant_zero_apply dot_S8x512_S8x4096_S512x4096_0_0_1_1_n_n none a b (ix2 r m)).trans ?_
  rw [← Equiv.sum_comp (contrEquiv1 dot_S8x512_S8x4096_S512x4096_0_0_1_1_n_n 8 rfl rfl).symm]
  refine Finset.sum_congr rfl fun k _ => ?_
  have hk := contrEquiv1_symm_val dot_S8x512_S8x4096_S512x4096_0_0_1_1_n_n 8 rfl rfl k
  have el : dot_S8x512_S8x4096_S512x4096_0_0_1_1_n_n.lhsIdx (ix2 r m) ((contrEquiv1 dot_S8x512_S8x4096_S512x4096_0_0_1_1_n_n 8 rfl rfl).symm k) = ix2 k r :=
    funext fun c => Fin.ext (by
      match c with
      | ⟨0, _⟩ => exact (dot_S8x512_S8x4096_S512x4096_0_0_1_1_n_n.lhsIdx_val_of_single rfl _ _).trans hk
      | ⟨1, _⟩ => exact gram_lhs1 _ _)
  have er : dot_S8x512_S8x4096_S512x4096_0_0_1_1_n_n.rhsIdx (ix2 r m) ((contrEquiv1 dot_S8x512_S8x4096_S512x4096_0_0_1_1_n_n 8 rfl rfl).symm k) = ix2 k m :=
    funext fun c => Fin.ext (by
      match c with
      | ⟨0, _⟩ => exact (dot_S8x512_S8x4096_S512x4096_0_0_1_1_n_n.rhsIdx_val_of_single rfl _ _).trans hk
      | ⟨1, _⟩ => exact gram_rhs1 _ _)
  rw [el, er]

/-! ## The clamped squared distance -/

/-- The first payload at row `r` and column `m`: the clamped squared distance of lane `r` of the first block and
    lane `m` of the second. -/
theorem pay1_apply (x0 : Vec Ideal S1x8x512 .f32) (x1 : Vec Ideal S1x8x4096 .f32) (r : Fin 512) (m : Fin 4096) :
    k0_pay1 (F := Ideal) x0 x1 (ix2 r m)
      = max (((∑ k : Fin 8, x0 (ix3 0 k r) * x0 (ix3 0 k r)) + (∑ k : Fin 8, x1 (ix3 0 k m) * x1 (ix3 0 k m)))
          - Chamfer.two * (∑ k : Fin 8, x0 (ix3 0 k r) * x1 (ix3 0 k m))) Chamfer.zero := by
  unfold k0_pay1
  refine congrArg₂ max (congrArg₂ (· - ·) (congrArg₂ (· + ·) ?_ ?_) (congrArg₂ (· * ·) rfl ?_)) rfl
  · refine (broadcastTo_a1_ab_apply _ _ r m).trans ((shapeCast_a_a1_apply _ _ r 0).trans ?_)
    exact colsq_apply x0 _ _ _ _ r
  · refine (broadcastTo_1b_ab_apply _ _ r m).trans ((shapeCast_a_1a_apply _ _ 0 m).trans ?_)
    exact colsq_apply x1 _ _ _ _ m
  · refine (gram_apply _ _ r m).trans (Finset.sum_congr rfl fun k _ => ?_)
    exact congrArg₂ (· * ·) (shapeCast_1ab_ab_apply x0 _ k r) (shapeCast_1ab_ab_apply x1 _ k m)

/-! ## The two least distances -/

/-- The least distance over the rows, read at column `m`. -/
theorem colmin_apply (x0 : Vec Ideal S1x8x512 .f32) (x1 : Vec Ideal S1x8x4096 .f32) (hφ : FKind.Formats FTy.f32)
    (hacc : (0x7F800000#32 : BitVec FTy.f32.bits) = FKind.minimumf.neutral .f32 hφ) (m : Fin 4096) :
    multiReduction (F := Ideal) .minimumf [0] S4096 (k0_pay1 (F := Ideal) x0 x1) 0x7F800000#32 reduces_S512x4096_S4096 hφ hacc (ix1 m)
      = (Finset.univ : Finset (Fin 512)).fold min Chamfer.inf (fun r => k0_pay1 (F := Ideal) x0 x1 (ix2 r m)) := by
  refine (multiReduction_minimumf_eq_fold (F := Ideal) _ _ reduces_S512x4096_S4096 hφ hacc (ix1 m)).trans ?_
  refine (reduces_S512x4096_S4096.fold_filter_drop_single _ _ _ (ix1 m)).trans ?_
  refine congrArg (fun f => Finset.fold min Chamfer.inf f (Finset.univ : Finset (Fin 512))) (funext fun r => ?_)
  exact congrArg (k0_pay1 (F := Ideal) x0 x1) (lift0_ix1 reduces_S512x4096_S4096 m r)

/-- The least distance over the columns, read at row `r`. -/
theorem rowmin_apply (x0 : Vec Ideal S1x8x512 .f32) (x1 : Vec Ideal S1x8x4096 .f32) (hφ : FKind.Formats FTy.f32)
    (hacc : (0x7F800000#32 : BitVec FTy.f32.bits) = FKind.minimumf.neutral .f32 hφ) (r : Fin 512) :
    multiReduction (F := Ideal) .minimumf [1] S512 (k0_pay1 (F := Ideal) x0 x1) 0x7F800000#32 reduces_S512x4096_S512 hφ hacc (ix1 r)
      = (Finset.univ : Finset (Fin 4096)).fold min Chamfer.inf (fun m => k0_pay1 (F := Ideal) x0 x1 (ix2 r m)) := by
  refine (multiReduction_minimumf_eq_fold (F := Ideal) _ _ reduces_S512x4096_S512 hφ hacc (ix1 r)).trans ?_
  refine (reduces_S512x4096_S512.fold_filter_drop_single _ _ _ (ix1 r)).trans ?_
  refine congrArg (fun f => Finset.fold min Chamfer.inf f (Finset.univ : Finset (Fin 4096))) (funext fun m => ?_)
  exact congrArg (k0_pay1 (F := Ideal) x0 x1) (lift1_ix1 reduces_S512x4096_S512 r m)

/-- The second payload at column `m`: the least distance over the rows. -/
theorem pay2_apply (x0 : Vec Ideal S1x8x512 .f32) (x1 : Vec Ideal S1x8x4096 .f32) (m : Fin 4096) :
    k0_pay2 (F := Ideal) x0 x1 (ix2 0 m)
      = (Finset.univ : Finset (Fin 512)).fold min Chamfer.inf (fun r => k0_pay1 (F := Ideal) x0 x1 (ix2 r m)) := by
  unfold k0_pay2
  exact (shapeCast_a_1a_apply _ _ 0 m).trans (colmin_apply x0 x1 _ _ m)

/-! ## The sum of the least distances over the columns -/

section Unit
variable {α : Type}

/-- A one-element vector cast to a one-element matrix reads its one element. -/
theorem shapeCast_1_11_apply (x : S1.Idx → α) (h : S1.ShapeCasts S1x1) (j : S1x1.Idx) :
    shapeCast S1x1 x h j = x (ix1 (0 : Fin 1)) :=
  shapeCast_apply x h _ _ (by
    have h0 := idx2_lt0 j
    have h1 := idx2_lt1 j
    rw [Shape.rowMajor_val_two, Shape.rowMajor_val_one]
    show 0 = (j 0).val * 1 + (j 1).val
    omega)

end Unit

/-- The third payload: the sum over the rows of the least distance over the columns. -/
theorem pay3_eq (x0 : Vec Ideal S1x8x512 .f32) (x1 : Vec Ideal S1x8x4096 .f32) :
    k0_pay3 (F := Ideal) x0 x1
      = ∑ r : Fin 512, (Finset.univ : Finset (Fin 4096)).fold min Chamfer.inf (fun m => k0_pay1 (F := Ideal) x0 x1 (ix2 r m)) := by
  unfold k0_pay3
  refine (shapeCast_1_11_apply _ _ _).trans ?_
  refine (Ideal.multiReduction_add_single _ _ reduces_S1x512_S1 _ _ (ix1 (0 : Fin 1))).trans ?_
  refine Finset.sum_congr rfl fun r _ => ?_
  refine (congrArg _ (lift1_ix1 reduces_S1x512_S1 (0 : Fin 1) r)).trans ?_
  exact (shapeCast_a_1a_apply _ _ 0 r).trans (rowmin_apply x0 x1 _ _ r)

/-! ## The accumulations into the result blocks -/

/-- The fourth payload: the row sum at every position of the one-element block. -/
theorem pay4_apply (x0 : Vec Ideal S1x8x512 .f32) (x1 : Vec Ideal S1x8x4096 .f32) (j : S1x1x1.Idx) :
    k0_pay4 (F := Ideal) x0 x1 j = k0_pay3 (F := Ideal) x0 x1 := by
  unfold k0_pay4
  exact broadcast_apply _ j

/-- The fifth payload is the second. -/
theorem pay5_eq (x0 : Vec Ideal S1x8x512 .f32) (x1 : Vec Ideal S1x8x4096 .f32) :
    k0_pay5 (F := Ideal) x0 x1 = k0_pay2 (F := Ideal) x0 x1 := by
  unfold k0_pay5
  exact shapeCast_self _ _

/-- The sixth payload adds the row sum to the block's value. -/
theorem pay6_apply (x0 : Vec Ideal S1x8x512 .f32) (x1 : Vec Ideal S1x8x4096 .f32) (v : Vec Ideal S1x1x1 .f32) (j : S1x1x1.Idx) :
    k0_pay6 (F := Ideal) x0 x1 v j = v j + k0_pay3 (F := Ideal) x0 x1 := by
  unfold k0_pay6
  refine (addf_apply _ _ j).trans ?_
  exact congrArg₂ (· + ·) (congrFun (shapeCast_self v _) j) (broadcast_apply _ j)

/-- The seventh payload takes the least of the block's value and the column minimum. -/
theorem pay7_apply (x0 : Vec Ideal S1x8x512 .f32) (x1 : Vec Ideal S1x8x4096 .f32) (v : Vec Ideal S1x4096 .f32) (j : S1x4096.Idx) :
    k0_pay7 (F := Ideal) x0 x1 v j = min (v j) (k0_pay2 (F := Ideal) x0 x1 j) := by
  unfold k0_pay7
  exact (congrFun (shapeCast_self _ _) j).trans (minimumf_apply _ _ j)
/-! ## The sum of a row of column minima -/

section Unit3
variable {α : Type}

/-- A one-element vector cast to a one-element rank-3 array reads its one element. -/
theorem shapeCast_1_111_apply (x : S1.Idx → α) (h : S1.ShapeCasts S1x1x1) (j : S1x1x1.Idx) :
    shapeCast S1x1x1 x h j = x (ix1 (0 : Fin 1)) :=
  shapeCast_apply x h _ _ (by
    have h0 : (j 0).val < 1 := (j 0).isLt
    have h1 : (j 1).val < 1 := (j 1).isLt
    have h2 : (j 2).val < 1 := (j 2).isLt
    rw [Shape.rowMajor_val_three, Shape.rowMajor_val_one]
    show 0 = ((j 0).val * 1 + (j 1).val) * 1 + (j 2).val
    omega)

/-- A `[1, 1, n]` index set is its last coordinate's range … -/
def idxEquiv11n (n : ℕ) : (⟨3, ![1, 1, n]⟩ : Shape).Idx ≃ Fin n where
  toFun i := i 2
  invFun m := ix3 (0 : Fin 1) (0 : Fin 1) m
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv _ := rfl

/-- … so a sum over it is the sum over that coordinate. -/
theorem sum_idx11n {M : Type*} [AddCommMonoid M] {n : ℕ} (f : (⟨3, ![1, 1, n]⟩ : Shape).Idx → M) :
    ∑ i, f i = ∑ m : Fin n, f (ix3 (0 : Fin 1) (0 : Fin 1) m) := by
  rw [← Equiv.sum_comp (idxEquiv11n n).symm f]
  rfl

end Unit3

/-- The eighth payload: the sum of the block's row, at every position of the one-element block. -/
theorem pay8_apply (v : Vec Ideal S1x4096 .f32) (j : S1x1x1.Idx) :
    k0_pay8 (F := Ideal) v j = ∑ m : Fin 4096, v (ix2 0 m) := by
  unfold k0_pay8
  refine (shapeCast_1_111_apply _ _ _).trans ?_
  refine (Ideal.multiReduction_add_total _ _ reduces_S1x1x4096_S1 (fun b => match b with | ⟨0, _⟩ => rfl) _ _ (ix1 (0 : Fin 1))).trans ?_
  refine (sum_idx11n _).trans (Finset.sum_congr rfl fun m _ => ?_)
  exact shapeCast_ab_1ab_apply v _ 0 0 m

end Chamfer.Pay

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.LibBlockFolds.lean ====
/-
  Folds of `min` with a starting value `c`, and sums, over a range of indices
  cut into equal consecutive blocks. The least value over all `a * b` indices (starting from `c`) is the least over
  the `a` blocks of the least value inside each block of `b` consecutive indices, each of the inner folds starting
  from the same `c`; the same for sums; with the instance 4096 = 8 × 512. Also: the starting value is absorbed by
  the fold, a fold over `range (i + 1)` splits off its last term, and two nested folds may be exchanged.
-/
import Mathlib.Data.Finset.Fold
import Mathlib.Data.Fintype.Fin
import Mathlib.Order.Interval.Finset.Nat
import Mathlib.Algebra.BigOperators.Fin
import proofs.«158327_g5248450036649_cont_9to1c4b_658_5_alg».proof.Proof.LibSumBlocks

namespace Cert.BlockFolds

open scoped BigOperators

variable {α : Type*} [LinearOrder α]

/-- The starting value of a fold of `min` is absorbed: `min (min_{x ∈ s} g x ⊓ c) c` is the fold itself. -/
theorem fold_min_absorb {β : Type*} (c : α) (s : Finset β) (g : β → α) :
    min (s.fold min c g) c = s.fold min c g :=
  min_eq_left ((Finset.fold_min_le c).mpr (Or.inl le_rfl))

/-- A fold of `min` over `range (i + 1)` is the fold over `range i` with the last term `f i` taken in. -/
theorem fold_min_range_succ (c : α) (f : ℕ → α) (i : ℕ) :
    (Finset.range (i + 1)).fold min c f = min ((Finset.range i).fold min c f) (f i) := by
  rw [Finset.range_add_one, Finset.fold_insert Finset.notMem_range_self, min_comm]

/-- A fold of `min` over `range (m + b)` is the least of the fold over the first `m` indices and the fold over the
  next `b` indices, both starting from `c`. -/
theorem fold_min_range_add (c : α) (f : ℕ → α) (m b : ℕ) :
    (Finset.range (m + b)).fold min c f
      = min ((Finset.range m).fold min c f) ((Finset.range b).fold min c (fun r => f (m + r))) := by
  induction b with
  | zero => simp only [Nat.add_zero, Finset.range_zero, Finset.fold_empty, fold_min_absorb]
  | succ b ih =>
    rw [← Nat.add_assoc, fold_min_range_succ, ih, fold_min_range_succ, min_assoc]

/-- A fold of `min` over all of `Fin n` of a function of the value is the fold over `range n`. -/
theorem fold_min_fin_eq_range (c : α) (n : ℕ) (f : ℕ → α) :
    (Finset.univ : Finset (Fin n)).fold min c (fun k => f k.val) = (Finset.range n).fold min c f := by
  rw [← Nat.Iio_eq_range, ← Fin.map_valEmbedding_univ, Finset.fold_map]
  rfl

/-- Blocks, on ranges: the least over `a` blocks of the least inside each block of `b` consecutive indices is the
  least over all `a * b` indices. -/
theorem fold_min_blocks_range (c : α) (a b : ℕ) (f : ℕ → α) :
    (Finset.range a).fold min c (fun i => (Finset.range b).fold min c (fun r => f (b * i + r)))
      = (Finset.range (a * b)).fold min c f := by
  induction a with
  | zero => simp only [Nat.zero_mul, Finset.range_zero, Finset.fold_empty]
  | succ a ih =>
    rw [fold_min_range_succ, ih, Nat.succ_mul, fold_min_range_add, Nat.mul_comm b a]

/-- Blocks, general `a × b`: the least over `a` blocks of the least inside each block of `b` consecutive indices is
  the least over all of `Fin (a * b)`. -/
theorem fold_min_blocks_gen (c : α) (a b : ℕ) (f : ℕ → α) :
    (Finset.range a).fold min c
        (fun i => (Finset.univ : Finset (Fin b)).fold min c (fun r => f (b * i + r.val)))
      = (Finset.univ : Finset (Fin (a * b))).fold min c (fun n => f n.val) := by
  rw [fold_min_fin_eq_range c (a * b) f, ← fold_min_blocks_range c a b f]
  refine Finset.fold_congr fun i _ => ?_
  exact fold_min_fin_eq_range c b (fun r => f (b * i + r))

/-- 4096 indices as 8 blocks of 512, for folds of `min`. -/
theorem fold_min_blocks (c : α) (f : ℕ → α) :
    (Finset.range 8).fold min c
        (fun i => (Finset.univ : Finset (Fin 512)).fold min c (fun r => f (512 * i + r.val)))
      = (Finset.univ : Finset (Fin 4096)).fold min c (fun n => f n.val) :=
  fold_min_blocks_gen c 8 512 f

/-- Blocks for sums, general `a × b`: the sum over `a` blocks of the sums inside each block of `b` consecutive
  indices is the sum over all of `Fin (a * b)`. -/
theorem sum_blocks_range_gen {M : Type*} [AddCommMonoid M] (a b : ℕ) (f : ℕ → M) :
    ∑ i ∈ Finset.range a, ∑ r : Fin b, f (b * i + r.val) = ∑ n : Fin (a * b), f n.val := by
  rw [Finset.sum_range]
  exact (Cert.SumBlocks.sum_blocks a b (fun u => f u.val)).symm

/-- 4096 indices as 8 blocks of 512, for sums. -/
theorem sum_blocks_range {M : Type*} [AddCommMonoid M] (f : ℕ → M) :
    ∑ i ∈ Finset.range 8, ∑ r : Fin 512, f (512 * i + r.val) = ∑ n : Fin 4096, f n.val :=
  sum_blocks_range_gen 8 512 f

/-- Two nested folds of `min`, all starting from the same `c`, may be exchanged. -/
theorem fold_min_comm2_finset {β γ : Type*} (c : α) (s : Finset β) (t : Finset γ) (g : β → γ → α) :
    s.fold min c (fun i => t.fold min c (g i)) = t.fold min c (fun j => s.fold min c (fun i => g i j)) := by
  refine eq_of_forall_le_iff fun x => ?_
  simp only [Finset.le_fold_min]
  constructor
  · rintro ⟨hc, h⟩
    exact ⟨hc, fun j hj => ⟨hc, fun i hi => (h i hi).2 j hj⟩⟩
  · rintro ⟨hc, h⟩
    exact ⟨hc, fun i hi => ⟨hc, fun j hj => (h j hj).2 i hi⟩⟩

/-- Two nested folds of `min` over `Fin a` and `Fin b`, all starting from the same `c`, may be exchanged. -/
theorem fold_min_comm2 (c : α) (a b : ℕ) (g : Fin a → Fin b → α) :
    (Finset.univ : Finset (Fin a)).fold min c (fun i => (Finset.univ : Finset (Fin b)).fold min c (g i))
      = (Finset.univ : Finset (Fin b)).fold min c
          (fun j => (Finset.univ : Finset (Fin a)).fold min c (fun i => g i j)) :=
  fold_min_comm2_finset c Finset.univ Finset.univ g

end Cert.BlockFolds
-- ==== Proof.KI.Accum.lean ====
/-
  What the kernel's three carried buffers hold, in closed form.  At grid point t = 8·b + i the body sees rows
  [512·i, 512·i + 512) of batch b of the first cloud and all of batch b of the second.  Every entry of its
  distance tile is the specification's dist b (512·i + r) m: the five padded zero rows add nothing to a squared norm
  or an inner product.  So after point t the row-sum buffer holds the sum over the row blocks i' ≤ i of the block's sum
  of row minima, the scratch row holds, at column m, the least over the row blocks i' ≤ i of the block's column
  minimum, and at i = 7 the column-sum buffer holds the sum of the scratch row: by induction on the point.  At the
  last row block of a batch these are the sums over all 4096 points of near1 and of near2.
-/
import proofs.«158327_g5248450036649_cont_9to1c4b_658_5_alg».proof.Proof.KI.Pieces
import proofs.«158327_g5248450036649_cont_9to1c4b_658_5_alg».proof.Proof.KI.Blocks
import proofs.«158327_g5248450036649_cont_9to1c4b_658_5_alg».proof.Proof.Payloads
import proofs.«158327_g5248450036649_cont_9to1c4b_658_5_alg».proof.Proof.LibBlockFolds

set_option maxRecDepth 16384

noncomputable section

namespace Cert.KernelIdeal.Accum

open Cert.KernelIdeal Cert.KernelIdeal.Gen Cert.KernelIdeal.Hand Cert.KernelIdeal.Blocks
open Idealize.ShloMosaic Idealize.ShloMosaic.TcCoe Idealize.ShloMosaic.ValueIdx Idealize.SL.Sem
open Chamfer

variable (m : (ℓ : Loc nD τ sig) → Buf (Elt Ideal) ℓ) (c : Dev nD)

/-- A fold of min over pointwise equal families. -/
theorem fold_min_congr {ι : Type} (s : Finset ι) (f g : ι → EReal) (h : ∀ x, f x = g x) :
    s.fold min Chamfer.inf f = s.fold min Chamfer.inf g := by rw [funext h]

/-- The distance table with the batch and the row as natural numbers (zero outside the table). -/
def dN (bb n : ℕ) (mm : Fin 4096) : EReal :=
  if h : bb < 4 ∧ n < 4096 then dist (X m c) (Y m c) ⟨bb, h.1⟩ ⟨n, h.2⟩ mm else 0

/-- The least distance from row n. -/
def n1N (bb n : ℕ) : EReal := (Finset.univ : Finset (Fin 4096)).fold min inf (fun mm => dN m c bb n mm)

/-- Row block i of batch bb: its sum of row minima, and its column minimum at column mm. -/
def R (bb i : ℕ) : EReal := ∑ r : Fin 512, n1N m c bb (512 * i + r.val)
def Cm (bb i : ℕ) (mm : Fin 4096) : EReal :=
  (Finset.univ : Finset (Fin 512)).fold min inf (fun r => dN m c bb (512 * i + r.val) mm)

theorem dN_in (b : Fin 4) (n mm : Fin 4096) : dN m c b.val n.val mm = dist (X m c) (Y m c) b n mm := by
  unfold dN; rw [dif_pos ⟨b.isLt, n.isLt⟩]
theorem n1N_in (b : Fin 4) (n : Fin 4096) : n1N m c b.val n.val = near1 (X m c) (Y m c) b n := by
  unfold n1N near1; exact fold_min_congr _ _ _ fun mm => dN_in m c b n mm

/-- An entry of the distance tile at point t is the specification's distance. -/
theorem tile_apply (t : Fin cfg0.N) (r : Fin 512) (mm : Fin 4096) :
    k0_pay1 (F := Ideal) (iblk m c 0 t) (iblk m c 1 t) (ix2 r mm) = dN m c (t.val / 8) (512 * (t.val % 8) + r.val) mm := by
  refine (Chamfer.Pay.pay1_apply (iblk m c 0 t) (iblk m c 1 t) r mm).trans ?_
  have e1 := sum8_blk0_sq m c t r
  have e2 := sum8_blk1_sq m c t mm
  have e3 := sum8_blk01_inner m c t r mm
  have hd : dN m c (t.val / 8) (512 * (t.val % 8) + r.val) mm = dist (X m c) (Y m c) (batchOf t) (rowOf t r) mm :=
    dN_in m c (batchOf t) (rowOf t r) mm
  rw [hd]; unfold Chamfer.dist
  exact congrArg₂ max (congrArg₂ (· - ·) (congrArg₂ (· + ·) e1 e2) (congrArg (Chamfer.two * ·) e3)) rfl

/-- The block's sum of row minima. -/
theorem rowsum_eq (t : Fin cfg0.N) :
    k0_pay3 (F := Ideal) (iblk m c 0 t) (iblk m c 1 t) = R m c (t.val / 8) (t.val % 8) := by
  refine (Chamfer.Pay.pay3_eq (iblk m c 0 t) (iblk m c 1 t)).trans ?_
  unfold R n1N
  exact Finset.sum_congr rfl fun r _ => fold_min_congr _ _ _ fun mm => tile_apply m c t r mm

/-- The block's column minima. -/
theorem colmin_apply (t : Fin cfg0.N) (mm : Fin 4096) :
    k0_pay2 (F := Ideal) (iblk m c 0 t) (iblk m c 1 t) (ix2 0 mm) = Cm m c (t.val / 8) (t.val % 8) mm := by
  refine (Chamfer.Pay.pay2_apply (iblk m c 0 t) (iblk m c 1 t) mm).trans ?_
  unfold Cm
  exact fold_min_congr _ _ _ fun r => tile_apply m c t r mm

theorem idx1x4096 (j : S1x4096.Idx) : j = ix2 0 (j 1) := by
  have h : j 0 = (0 : Fin 1) := Fin.ext (Nat.lt_one_iff.mp (j 0).isLt)
  rw [eq_ix2 j]; exact congrArg (fun a => ix2 a (j 1)) h

/-- The state of three buffers o after the point at position n. -/
def InvOf (o : Outs Ideal) (n : ℕ) : Prop :=
  (∀ j, o.1 j = ∑ i' ∈ Finset.range (n % 8 + 1), R m c (n / 8) i')
  ∧ (∀ mm : Fin 4096, o.2.2 (ix2 0 mm) = (Finset.range (n % 8 + 1)).fold min inf (fun i' => Cm m c (n / 8) i' mm))
  ∧ (n % 8 = 7 → ∀ j, o.2.1 j = ∑ mm : Fin 4096, o.2.2 (ix2 0 mm))

/-- The state of the kernel's three buffers after the point at position n. -/
def Inv (n : ℕ) (h : n < cfg0.N) : Prop := InvOf m c (outsAt m c n h) n

/-- The case "start" establishes the state. -/
theorem invOfA (t : Fin cfg0.N) (h0 : t.val % 8 = 0) (junk : Vec Ideal S1x1x1 .f32) :
    InvOf m c (k0_pay4 (F := Ideal) (iblk m c 0 t) (iblk m c 1 t), junk, k0_pay5 (F := Ideal) (iblk m c 0 t) (iblk m c 1 t)) t.val := by
  refine ⟨fun j => ?_, fun mm => ?_, fun h7 => by omega⟩
  · dsimp only
    rw [Chamfer.Pay.pay4_apply, rowsum_eq, h0, Finset.sum_range_one]
  · dsimp only
    rw [Chamfer.Pay.pay5_eq, colmin_apply, h0, Cert.BlockFolds.fold_min_range_succ, Finset.range_zero, Finset.fold_empty]
    unfold Cm
    rw [min_comm]; exact (Cert.BlockFolds.fold_min_absorb inf _ _).symm

theorem invA (t : Fin cfg0.N) (h0 : t.val % 8 = 0) : Inv m c t.val t.isLt := by
  unfold Inv
  rw [outsAt_A m c t h0, atA_eq m c t h0]
  exact invOfA m c t h0 _

/-- The case "fold" carries the state from the point before (the column-sum buffer is whatever o3 says). -/
theorem invOfStep (t : Fin cfg0.N) (n : ℕ) (hn : t.val = n + 1) (h0 : ¬(n + 1) % 8 = 0) (prev : Outs Ideal) (hp : InvOf m c prev n)
    (o3 : Vec Ideal S1x1x1 .f32)
    (h3 : (n + 1) % 8 = 7 → ∀ j, o3 j = ∑ mm : Fin 4096, k0_pay7 (F := Ideal) (iblk m c 0 t) (iblk m c 1 t) prev.2.2 (ix2 0 mm)) :
    InvOf m c (k0_pay6 (F := Ideal) (iblk m c 0 t) (iblk m c 1 t) prev.1, o3, k0_pay7 (F := Ideal) (iblk m c 0 t) (iblk m c 1 t) prev.2.2) (n + 1) := by
  obtain ⟨ih1, ih2, -⟩ := hp
  have hb : (n + 1) / 8 = n / 8 := by omega
  have hi : (n + 1) % 8 = n % 8 + 1 := by omega
  refine ⟨fun j => ?_, fun mm => ?_, fun h7 j => ?_⟩
  · dsimp only
    rw [Chamfer.Pay.pay6_apply, rowsum_eq, hn, ih1 j, hb, hi, ← Finset.sum_range_succ]
  · dsimp only
    rw [Chamfer.Pay.pay7_apply, colmin_apply, hn, ih2 mm, hb, hi, ← Cert.BlockFolds.fold_min_range_succ]
  · dsimp only
    exact h3 h7 j

theorem inv : ∀ (n : ℕ) (h : n < cfg0.N), Inv m c n h
  | 0, h => invA m c ⟨0, h⟩ (Nat.zero_mod _)
  | n + 1, h => by
    by_cases h0 : (n + 1) % 8 = 0
    · exact invA m c ⟨n + 1, h⟩ h0
    · have ih : InvOf m c (outsAt m c n (Nat.lt_of_succ_lt h)) n := inv n (Nat.lt_of_succ_lt h)
      unfold Inv
      by_cases h7 : (n + 1) % 8 = 7
      · rw [outsAt_C m c ⟨n + 1, h⟩ h0 h7, atC_eq m c ⟨n + 1, h⟩ h0 h7]
        exact invOfStep m c ⟨n + 1, h⟩ n rfl h0 _ ih _ (fun _ j => Chamfer.Pay.pay8_apply _ j)
      · rw [outsAt_B m c ⟨n + 1, h⟩ h0 h7, atB_eq m c ⟨n + 1, h⟩ h0 h7]
        exact invOfStep m c ⟨n + 1, h⟩ n rfl h0 _ ih _ (fun h' => absurd h' h7)

/-- After the last row block of batch b the row-sum buffer holds the sum of near1 over the batch. -/
theorem rowsum_final (t : Fin cfg0.N) (h7 : t.val % 8 = 7) (j) :
    (outsAt m c t.val t.isLt).1 j = (fun bb : ℕ => if h : bb < 4 then ∑ n : Fin 4096, near1 (X m c) (Y m c) ⟨bb, h⟩ n else 0) (t.val / 8) := by
  have hN : t.val < 32 := lt_of_lt_of_eq t.isLt (show cfg0.N = 32 from N_0)
  have hb : t.val / 8 < 4 := by omega
  rw [(inv m c t.val t.isLt).1 j, h7]
  show ∑ i' ∈ Finset.range 8, R m c (t.val / 8) i' = _
  unfold R
  rw [Cert.BlockFolds.sum_blocks_range (fun n => n1N m c (t.val / 8) n)]
  dsimp only; rw [dif_pos hb]
  exact Finset.sum_congr rfl fun n _ => n1N_in m c ⟨t.val / 8, hb⟩ n

/-- And the column-sum buffer the sum of near2 over the batch. -/
theorem colsum_final (t : Fin cfg0.N) (h7 : t.val % 8 = 7) (j) :
    (outsAt m c t.val t.isLt).2.1 j = (fun bb : ℕ => if h : bb < 4 then ∑ mm : Fin 4096, near2 (X m c) (Y m c) ⟨bb, h⟩ mm else 0) (t.val / 8) := by
  have hN : t.val < 32 := lt_of_lt_of_eq t.isLt (show cfg0.N = 32 from N_0)
  have hb : t.val / 8 < 4 := by omega
  rw [(inv m c t.val t.isLt).2.2 h7 j]
  dsimp only; rw [dif_pos hb]
  refine Finset.sum_congr rfl fun mm _ => ?_
  rw [(inv m c t.val t.isLt).2.1 mm, h7]
  show (Finset.range 8).fold min inf (fun i' => Cm m c (t.val / 8) i' mm) = _
  unfold Cm
  rw [Cert.BlockFolds.fold_min_blocks inf (fun n => dN m c (t.val / 8) n mm)]
  unfold near2
  exact fold_min_congr _ _ _ fun n => dN_in m c ⟨t.val / 8, hb⟩ n mm

end Cert.KernelIdeal.Accum

end
-- ==== Proof.KI.Final.lean ====
/-
  The two results of the kernel region.  Each output window has a [1, 1, 1] block at block index (t / 8, 0, 0) of its
  [4, 1, 1] array and is written back exactly at the points t = 8·b + 7, the last row block of batch b.  So entry
  (b, 0, 0) of each final array is what the window's buffer held after point 8·b + 7: if there it holds a number
  g (t / 8) in every entry, the final array holds g b at (b, 0, 0).
-/
import proofs.«158327_g5248450036649_cont_9to1c4b_658_5_alg».proof.Proof.KI.Frame
import proofs.«158327_g5248450036649_cont_9to1c4b_658_5_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- Both output windows' block index at point t = 8·b + i is (b, 0, 0). -/
theorem index2 : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)
theorem index3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-- An entry of the [4, 1, 1] array is in point t's block of the first output exactly when its batch is t / 8. -/
theorem mem_blk2 (t : Fin cfg0.N) (i : S4x1x1.Idx) :
    i ∈ ((cfg0.win 2).blk t).view.set ↔ (i 0).val = t.val / 8 := by
  obtain ⟨e0, e1, e2⟩ := index2 t
  have h1 : (i 1).val < 1 := (i 1).isLt
  have h2 : (i 2).val < 1 := (i 2).isLt
  show i ∈ ((View.whole main_v4_0).slice (win0_2.rect t)).set ↔ _
  rw [View.set_slice_whole, Rect.mem_set_unit]
  constructor
  · intro hh
    have h0 : win0_2.index t (0 : Fin 3) * 1 ≤ (i 0).val ∧ (i 0).val < win0_2.index t (0 : Fin 3) * 1 + 1 := hh 0
    omega
  · intro hh a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 1 ≤ (i 2).val ∧ (i 2).val < win0_2.index t (2 : Fin 3) * 1 + 1; omega

/-- The same for the second output. -/
theorem mem_blk3 (t : Fin cfg0.N) (i : S4x1x1.Idx) :
    i ∈ ((cfg0.win 3).blk t).view.set ↔ (i 0).val = t.val / 8 := by
  obtain ⟨e0, e1, e2⟩ := index3 t
  have h1 : (i 1).val < 1 := (i 1).isLt
  have h2 : (i 2).val < 1 := (i 2).isLt
  show i ∈ ((View.whole main_v4_1).slice (win0_3.rect t)).set ↔ _
  rw [View.set_slice_whole, Rect.mem_set_unit]
  constructor
  · intro hh
    have h0 : win0_3.index t (0 : Fin 3) * 1 ≤ (i 0).val ∧ (i 0).val < win0_3.index t (0 : Fin 3) * 1 + 1 := hh 0
    omega
  · intro hh a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 1 ≤ (i 2).val ∧ (i 2).val < win0_3.index t (2 : Fin 3) * 1 + 1; omega

/-- The last point of batch b: 8·b + 7. -/
abbrev lastOf (i : S4x1x1.Idx) : Fin cfg0.N :=
  ⟨8 * (i 0).val + 7, lt_of_lt_of_eq (by have : (i 0).val < 4 := (i 0).isLt; omega : 8 * (i 0).val + 7 < 32) N_0.symm⟩

/-- Every entry of the first output array is in the block of a point that writes it back: the last point of its batch. -/
theorem cover2 (i : S4x1x1.Idx) :
    ∃ t : Fin cfg0.N, (cfg0.win 2).flush t = true ∧ i ∈ ((cfg0.win 2).blk t).view.set :=
  ⟨lastOf i, (flush0_2 (lastOf i)).mpr (by show (8 * (i 0).val + 7) % 8 = 7; omega),
    (mem_blk2 (lastOf i) i).mpr (by show (i 0).val = (8 * (i 0).val + 7) / 8; omega)⟩

/-- The same for the second output. -/
theorem cover3 (i : S4x1x1.Idx) :
    ∃ t : Fin cfg0.N, (cfg0.win 3).flush t = true ∧ i ∈ ((cfg0.win 3).blk t).view.set :=
  ⟨lastOf i, (flush0_3 (lastOf i)).mpr (by show (8 * (i 0).val + 7) % 8 = 7; omega),
    (mem_blk3 (lastOf i) i).mpr (by show (i 0).val = (8 * (i 0).val + 7) / 8; omega)⟩

/-- What a writing point t writes back to the first output is block t of the array holding g (b) at batch b, if the
    window's buffer holds g (t / 8) in every entry after every last point of a batch. -/
theorem flushed2_eq (g : ℕ → EReal)
    (h : ∀ t : Fin cfg0.N, t.val % 8 = 7 → ∀ j, (Hand.outsAt m c t.val t.isLt).1 j = g (t.val / 8))
    (t : Fin cfg0.N) (hf : (cfg0.win 2).flush t = true) :
    (Hand.dats m 0 c).flushed 2 t
      = ((cfg0.win 2).blk t).view.read (Elt Ideal) (fun j : S4x1x1.Idx => g (j 0).val) := by
  have h7 : t.val % 8 = 7 := (flush0_2 t).mp hf
  obtain ⟨e0, e1, e2⟩ := index2 t
  show (cfg0.win 2).cut (grid0.coords t) ((Hand.dats m 0 c).after 2 t) = _
  rw [Hand.after2]
  funext y
  have hy : (y 0).val < 1 := (y 0).isLt
  show (Hand.outsAt m c t.val t.isLt).1 _ = g ((((cfg0.win 2).blk t).view.emb y) 0).val
  rw [h t h7]
  refine congrArg g ?_
  show t.val / 8 = win0_2.index t (0 : Fin 3) * 1 + 1 * (y 0).val
  omega

/-- The same for the second output. -/
theorem flushed3_eq (g : ℕ → EReal)
    (h : ∀ t : Fin cfg0.N, t.val % 8 = 7 → ∀ j, (Hand.outsAt m c t.val t.isLt).2.1 j = g (t.val / 8))
    (t : Fin cfg0.N) (hf : (cfg0.win 3).flush t = true) :
    (Hand.dats m 0 c).flushed 3 t
      = ((cfg0.win 3).blk t).view.read (Elt Ideal) (fun j : S4x1x1.Idx => g (j 0).val) := by
  have h7 : t.val % 8 = 7 := (flush0_3 t).mp hf
  obtain ⟨e0, e1, e2⟩ := index3 t
  show (cfg0.win 3).cut (grid0.coords t) ((Hand.dats m 0 c).after 3 t) = _
  rw [Hand.after3]
  funext y
  have hy : (y 0).val < 1 := (y 0).isLt
  show (Hand.outsAt m c t.val t.isLt).2.1 _ = g ((((cfg0.win 3).blk t).view.emb y) 0).val
  rw [h t h7]
  refine congrArg g ?_
  show t.val / 8 = win0_3.index t (0 : Fin 3) * 1 + 1 * (y 0).val
  omega

/-- The first output array after the region: g (b) at (b, 0, 0). -/
theorem final2_eq (g : ℕ → EReal)
    (h : ∀ t : Fin cfg0.N, t.val % 8 = 7 → ∀ j, (Hand.outsAt m c t.val t.isLt).1 j = g (t.val / 8)) :
    ((Hand.dats m 0 c).arrAt 2 cfg0.N : S4x1x1.Idx → EReal) = fun j => g (j 0).val :=
  (Hand.dats m 0 c).arrAt_eq_of_cover 2 (fun j : S4x1x1.Idx => g (j 0).val) (flushed2_eq m c g h) cover2

/-- The second output array after the region: g (b) at (b, 0, 0). -/
theorem final3_eq (g : ℕ → EReal)
    (h : ∀ t : Fin cfg0.N, t.val % 8 = 7 → ∀ j, (Hand.outsAt m c t.val t.isLt).2.1 j = g (t.val / 8)) :
    ((Hand.dats m 0 c).arrAt 3 cfg0.N : S4x1x1.Idx → EReal) = fun j => g (j 0).val :=
  (Hand.dats m 0 c).arrAt_eq_of_cover 3 (fun j : S4x1x1.Idx => g (j 0).val) (flushed3_eq m c g h) cover3

/-- Entry (b, 0, 0) of the first output array after the region is g (b). -/
theorem final2 (g1 : ℕ → EReal)
    (h : ∀ t : Fin cfg0.N, t.val % 8 = 7 → ∀ j, (Hand.outsAt m c t.val t.isLt).1 j = g1 (t.val / 8)) :
    ∀ b : Fin 4, ((Hand.dats m 0 c).arrAt 2 cfg0.N : S4x1x1.Idx → EReal) (ix3 b 0 0) = g1 b.val :=
  fun b => congrFun (final2_eq m c g1 h) (ix3 b 0 0)

/-- Entry (b, 0, 0) of the second output array after the region is g (b). -/
theorem final3 (g2 : ℕ → EReal)
    (h : ∀ t : Fin cfg0.N, t.val % 8 = 7 → ∀ j, (Hand.outsAt m c t.val t.isLt).2.1 j = g2 (t.val / 8)) :
    ∀ b : Fin 4, ((Hand.dats m 0 c).arrAt 3 cfg0.N : S4x1x1.Idx → EReal) (ix3 b 0 0) = g2 b.val :=
  fun b => congrFun (final3_eq m c g2 h) (ix3 b 0 0)

end Cert.KernelIdeal.Final

end
-- ==== Proof.KI.Tail.lean ====
/-
  After the region the program sums each of the two [4, 1, 1] result arrays over all its entries, from the word 0,
  and divides the sum by the word 16384.  Here: the two final buffers as those operations applied to the arrays
  as the region leaves them, for any proof data; and, at the extended reals, each as the quotient of the sum of the
  four entries by the word.
-/
import proofs.«158327_g5248450036649_cont_9to1c4b_658_5_alg».proof.Proof.KI.Base
import proofs.«158327_g5248450036649_cont_9to1c4b_658_5_alg».proof.Proof.Spec
import Idealize.ShloMosaic.Lib.StableHlo.Run
import Idealize.ShloMosaic.Lib.ValueIdx
import Idealize.ShloMosaic.PureOps.Ideal.Laws
import Idealize.ShloMosaic.Lib.Pipeline.FrameSuffix

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

section Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first final buffer: the sum of the row-sum array as the region leaves it, from the word 0, over the word 16384. -/
theorem tail_v6 (dats : (p : Fin 1) → (c : Dev nD) → Dat τ (Elt F) Unit ℕ (UR sig nD τ) ℕ (cfgs p) c) (c : Dev nD) :
    Pipeline.afterTail₀ cfgs dats 0 (V0 m) [hostOps1] c main_v6
      = Host.divf (Host.reduceAdd ((dats 0 c).arrAt 2 cfg0.N) (constant S_ .f32 0x00000000#32) reducesTo_S4x1x1_S_d0_1_2 h_S_)
          (constant S_ .f32 0x46800000#32) := by
  unfold Pipeline.afterTail₀
  show StableHlo.after hostOps1 _ (Proc.devRef .tc main_v6) = _
  after_results
  have h : Pipeline.withArrays (cfgs 0).spec c (V0 m c) (fun w => (dats 0 c).arrAt w (cfgs 0).N) (Proc.devRef .tc main_v4_0)
      = (dats 0 c).arrAt 2 cfg0.N :=
    Pipeline.withArrays_arr spec0 launch0.win.arr_inj c (V0 m c) _ 2
  rw [h]

/-- The second final buffer: the same of the column-sum array. -/
theorem tail_v8 (dats : (p : Fin 1) → (c : Dev nD) → Dat τ (Elt F) Unit ℕ (UR sig nD τ) ℕ (cfgs p) c) (c : Dev nD) :
    Pipeline.afterTail₀ cfgs dats 0 (V0 m) [hostOps1] c main_v8
      = Host.divf (Host.reduceAdd ((dats 0 c).arrAt 3 cfg0.N) (constant S_ .f32 0x00000000#32) reducesTo_S4x1x1_S_d0_1_2 h_S_)
          (constant S_ .f32 0x46800000#32) := by
  unfold Pipeline.afterTail₀
  show StableHlo.after hostOps1 _ (Proc.devRef .tc main_v8) = _
  after_results
  have h : Pipeline.withArrays (cfgs 0).spec c (V0 m c) (fun w => (dats 0 c).arrAt w (cfgs 0).N) (Proc.devRef .tc main_v4_1)
      = (dats 0 c).arrAt 3 cfg0.N :=
    Pipeline.withArrays_arr spec0 launch0.win.arr_inj c (V0 m c) _ 3
  rw [h]

end Generic

/-! ## At the extended reals -/

/-- A sum over the indices of a [4, 1, 1] array is the sum over its four entries. -/
theorem sum_S4x1x1 (f : S4x1x1.Idx → EReal) : ∑ j : S4x1x1.Idx, f j = ∑ b : Fin 4, f (ix3 b 0 0) := by
  refine (Fintype.sum_equiv (⟨fun b => ix3 b 0 0, fun j => j 0, fun b => rfl, fun j => ?_⟩ : Fin 4 ≃ S4x1x1.Idx) _ _ fun b => rfl).symm
  funext a
  match a with
  | ⟨0, _⟩ => rfl
  | ⟨1, _⟩ => exact Subsingleton.elim (α := Fin 1) _ _
  | ⟨2, _⟩ => exact Subsingleton.elim (α := Fin 1) _ _

/-- The sum of a [4, 1, 1] array from the word 0 over the word 16384, read at the extended reals. -/
theorem div_sum_apply (x : (⟨S4x1x1, .f32⟩ : BufTy).Contents (Elt Ideal)) (i : S_.Idx) :
    (Host.divf (Host.reduceAdd (F := Ideal) x (constant S_ .f32 0x00000000#32) reducesTo_S4x1x1_S_d0_1_2 h_S_)
        (constant S_ .f32 0x46800000#32)) i
      = Ideal.div (∑ b : Fin 4, x (ix3 b 0 0)) Chamfer.count := by
  show FloatOps.hostDivf (Host.reduceAdd (F := Ideal) x (constant S_ .f32 0x00000000#32) reducesTo_S4x1x1_S_d0_1_2 h_S_ i)
      (FloatOps.ofBits .f32 0x46800000#32) = _
  simp only [Host.reduceAdd, Ideal.hostReduceAdd_def]
  rw [Ideal.hostReduceAdd_total reducesTo_S4x1x1_S_d0_1_2 (fun b => b.elim0) x _ i, Ideal.hostDivf_def, Ideal.ofBits_def]
  show Ideal.div (Ideal.ofBits .f32 0x00000000#32 + _) _ = _
  rw [Ideal.ofBits_zero_f32, zero_add, sum_S4x1x1]
  rfl

/-- The first final buffer at the extended reals: the four row sums added, over the word 16384. -/
theorem tail_v6_ideal (m : (ℓ : Loc nD τ sig) → Buf (Elt Ideal) ℓ)
    (dats : (p : Fin 1) → (c : Dev nD) → Dat τ (Elt Ideal) Unit ℕ (UR sig nD τ) ℕ (cfgs p) c) (c : Dev nD) (i : S_.Idx) :
    Pipeline.afterTail₀ cfgs dats 0 (V0 m) [hostOps1] c main_v6 i
      = Ideal.div (∑ b : Fin 4, (dats 0 c).arrAt 2 cfg0.N (ix3 b 0 0)) Chamfer.count := by
  rw [tail_v6 m dats c]
  exact div_sum_apply _ i

/-- The second final buffer at the extended reals: the four column sums added, over the word 16384. -/
theorem tail_v8_ideal (m : (ℓ : Loc nD τ sig) → Buf (Elt Ideal) ℓ)
    (dats : (p : Fin 1) → (c : Dev nD) → Dat τ (Elt Ideal) Unit ℕ (UR sig nD τ) ℕ (cfgs p) c) (c : Dev nD) (i : S_.Idx) :
    Pipeline.afterTail₀ cfgs dats 0 (V0 m) [hostOps1] c main_v8 i
      = Ideal.div (∑ b : Fin 4, (dats 0 c).arrAt 3 cfg0.N (ix3 b 0 0)) Chamfer.count := by
  rw [tail_v8 m dats c]
  exact div_sum_apply _ i

end Cert.KernelIdeal.Tail

end
-- ==== Proof.KI.Result.lean ====
/-
  The kernel program's two results.  After the region the two [4,1,1] arrays hold, at batch b, the sum over the
  batch of near1 and of near2 (the row-sum and column-sum buffers as they stood after the batch's last row block);
  the host lines after the region add the four batches from the zero word and divide by the word 16384: the
  specification's out1 and out2 of the two clouds.
-/
import proofs.«158327_g5248450036649_cont_9to1c4b_658_5_alg».proof.Proof.KI.Accum
import proofs.«158327_g5248450036649_cont_9to1c4b_658_5_alg».proof.Proof.KI.Final
import proofs.«158327_g5248450036649_cont_9to1c4b_658_5_alg».proof.Proof.KI.Tail

set_option maxRecDepth 16384

noncomputable section

namespace Cert.KernelIdeal.Result

open Cert.KernelIdeal Cert.KernelIdeal.Gen Cert.KernelIdeal.Hand Cert.KernelIdeal.Blocks
open Idealize.ShloMosaic Idealize.ShloMosaic.TcCoe Idealize.ShloMosaic.ValueIdx Idealize.SL.Sem
open Chamfer

variable (m : (ℓ : Loc nD τ sig) → Buf (Elt Ideal) ℓ) (ρ : Dev nD → PrngReg)

/-- Entry b of the first result array: the batch's sum of near1. -/
theorem arr2 (c : Dev nD) (b : Fin 4) :
    ((dats m 0 c).arrAt 2 cfg0.N : S4x1x1.Idx → EReal) (ix3 b 0 0) = ∑ n : Fin 4096, near1 (X m c) (Y m c) b n := by
  have h := Final.final2 m c (fun bb : ℕ => if h : bb < 4 then ∑ n : Fin 4096, near1 (X m c) (Y m c) ⟨bb, h⟩ n else 0)
    (fun t h7 j => Accum.rowsum_final m c t h7 j) b
  rw [h]; dsimp only; rw [dif_pos b.isLt]

/-- Entry b of the second result array: the batch's sum of near2. -/
theorem arr3 (c : Dev nD) (b : Fin 4) :
    ((dats m 0 c).arrAt 3 cfg0.N : S4x1x1.Idx → EReal) (ix3 b 0 0) = ∑ mm : Fin 4096, near2 (X m c) (Y m c) b mm := by
  have h := Final.final3 m c (fun bb : ℕ => if h : bb < 4 then ∑ mm : Fin 4096, near2 (X m c) (Y m c) ⟨bb, h⟩ mm else 0)
    (fun t h7 j => Accum.colsum_final m c t h7 j) b
  rw [h]; dsimp only; rw [dif_pos b.isLt]

/-- Every weakly fair execution of the kernel program ends with its two results at the specification's two numbers
    of the clouds it was launched with, and with the clouds unchanged. -/
theorem run_value :
    θ_run defs (onTc (τ := τ) (main (F := Ideal))) ⟨m, fun _ => 0, ρ⟩ (fun r => ∀ c : Dev nD,
      r.2.mem ((c.tc : Thread nD τ).loc main_v6) = (fun _ => out1 (X m c) (Y m c))
      ∧ r.2.mem ((c.tc : Thread nD τ).loc main_v8) = (fun _ => out2 (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_⟩) (Hand.run_main (F := Ideal) m ρ)
  · refine ((h c).2 main_v6 (Pipeline.mem_restRefs_of main_v6 (by decide) (by decide))).trans (funext fun i => ?_)
    rw [Tail.tail_v6_ideal m (dats m) c i]
    unfold out1
    exact congrArg (fun s => Ideal.div s count) (Finset.sum_congr rfl fun b _ => arr2 m c b)
  · refine ((h c).2 main_v8 (Pipeline.mem_restRefs_of main_v8 (by decide) (by decide))).trans (funext fun i => ?_)
    rw [Tail.tail_v8_ideal m (dats m) c i]
    unfold out2
    exact congrArg (fun s => Ideal.div s count) (Finset.sum_congr rfl fun b _ => arr3 m c b)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Result

end
-- ==== Proof.RefSide.lean ====
/-
  The reference program read on the extended reals, stage by stage: its squared norms and inner products are sums
  over the three coordinates, its table entry at (b, n, m) is the specification's dist b n m, its two reductions by
  minimum are near1 and near2 (folds of min from the +inf word over the reduced axis), and its two results are the
  sums of those over batch and point, from the zero word, divided by the word 16384: out1 and out2.
-/
import proofs.«158327_g5248450036649_cont_9to1c4b_658_5_alg».proof.Defs
import proofs.«158327_g5248450036649_cont_9to1c4b_658_5_alg».proof.Proof.Gen.ReferenceIdeal.Read
import proofs.«158327_g5248450036649_cont_9to1c4b_658_5_alg».proof.Proof.Spec
import Idealize.ShloMosaic.Lib.ValueIdx
import Idealize.ShloMosaic.PureOps.Ideal.Laws
import Idealize.ShloMosaic.PureOps.Reduce

/-
  The reference program's two results, read at the extended reals, are the two means of least clamped squared
  distances of the specification.  Each stage is read at an index; the two minimum reductions are folds of min over
  one axis; the two final sums run over all pairs (batch, point).
-/

set_option maxRecDepth 16384

noncomputable section

namespace Chamfer.Ref

open Cert.ReferenceIdeal Cert.ReferenceIdeal.Gen Cert.ReferenceIdeal.Read Idealize.ShloMosaic Idealize.ShloMosaic.ValueIdx

/-- A point cloud at the extended reals. -/
abbrev Arg : Type := (⟨S4x4096x3, .f32⟩ : BufTy).Contents (Elt Ideal)

/-- The sum of squares of point n of batch b of X. -/
theorem v1_at (X : Arg) (b : Fin 4) (n : Fin 4096) :
    val_main_v1 (F := Ideal) X (ix2 b n) = Chamfer.sq X b n := by
  rw [val_main_v1_apply, val_main_cst_apply, Ideal.ofBits_def, Ideal.ofBits_zero_f32, zero_add]
  unfold Chamfer.sq Chamfer.pt
  refine Finset.sum_congr rfl fun k _ => ?_
  rw [val_main_v0_apply, Ideal.mulf_def]
  have e : idx_main_v1 (ix2 b n) k = ix3 b n k :=
    funext fun a => Fin.ext (by match a with | ⟨0, _⟩ => rfl | ⟨1, _⟩ => rfl | ⟨2, _⟩ => rfl)
  rw [e]

/-- The sum of squares of point m of batch b of Y. -/
theorem v3_at (Y : Arg) (b : Fin 4) (m : Fin 4096) :
    val_main_v3 (F := Ideal) Y (ix2 b m) = Chamfer.sq Y b m := by
  rw [val_main_v3_apply, val_main_cst_0_apply, Ideal.ofBits_def, Ideal.ofBits_zero_f32, zero_add]
  unfold Chamfer.sq Chamfer.pt
  refine Finset.sum_congr rfl fun k _ => ?_
  rw [val_main_v2_apply, Ideal.mulf_def]
  have e : idx_main_v3 (ix2 b m) k = ix3 b m k :=
    funext fun a => Fin.ext (by match a with | ⟨0, _⟩ => rfl | ⟨1, _⟩ => rfl | ⟨2, _⟩ => rfl)
  rw [e]

/-- The inner product of point n of X with point m of Y in batch b. -/
theorem v4_at (X Y : Arg) (b : Fin 4) (n m : Fin 4096) :
    val_main_v4 (F := Ideal) X Y (ix3 b n m) = Chamfer.inner X Y b n m := by
  rw [val_main_v4_apply]
  unfold Chamfer.inner Chamfer.pt
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The clamped squared distance of point n of X and point m of Y in batch b. -/
theorem v14_at (X Y : Arg) (b : Fin 4) (n m : Fin 4096) :
    val_main_v14 (F := Ideal) X Y (ix3 b n m) = Chamfer.dist X Y b n m := by
  have e7 : idx_main_v5 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  rw [val_main_v14_apply, val_main_v12_apply, val_main_v9_apply, val_main_v11_apply, val_main_v7_apply,
    val_main_v5_apply, val_main_v8_apply, val_main_v6_apply, val_main_v10_apply, val_main_v13_apply,
    val_main_cst_1_apply, val_main_cst_2_apply, e7, e8, v1_at, v3_at, v4_at]
  rfl

/-- The source shape with its last axis dropped, and with its middle axis dropped. -/
theorem red2 : S4x4096x4096.Reduces [2] S4x4096 := by decide
theorem red1 : S4x4096x4096.Reduces [1] S4x4096 := by decide

/-- The pair (b, n) with coordinate k put back on the last axis is (b, n, k). -/
theorem lift2 (b : Fin 4) (n : Fin 4096) (k : Fin (S4x4096x4096.size 2)) :
    red2.lift (ix2 b n) k = ix3 b n (⟨k.val, k.isLt⟩ : Fin 4096) := by
  funext c; apply Fin.ext
  match c with | ⟨0, _⟩ => rfl | ⟨1, _⟩ => rfl | ⟨2, _⟩ => rfl

/-- The pair (b, m) with coordinate k put back on the middle axis is (b, k, m). -/
theorem lift1 (b : Fin 4) (m : Fin 4096) (k : Fin (S4x4096x4096.size 1)) :
    red1.lift (ix2 b m) k = ix3 b (⟨k.val, k.isLt⟩ : Fin 4096) m := by
  funext c; apply Fin.ext
  match c with | ⟨0, _⟩ => rfl | ⟨1, _⟩ => rfl | ⟨2, _⟩ => rfl

/-- The minimum over the last axis is the least distance from point n of X to a point of Y. -/
theorem v15_at (X Y : Arg) (b : Fin 4) (n : Fin 4096) :
    val_main_v15 (F := Ideal) X Y (ix2 b n) = Chamfer.near1 X Y b n := by
  unfold val_main_v15
  rw [Host.reduce_eq_fold_single FloatOps.minimumf _ _ reducesTo_S4x4096x4096_S4x4096_d2 red2 h_S_]
  have hf : (val_main_v14 (F := Ideal) X Y ∘ red2.lift (ix2 b n)) = fun m : Fin 4096 => Chamfer.dist X Y b n m :=
    funext fun k => by rw [Function.comp_apply, lift2, v14_at]; rfl
  rw [hf]
  rfl

/-- The minimum over the middle axis is the least distance from point m of Y to a point of X. -/
theorem v16_at (X Y : Arg) (b : Fin 4) (m : Fin 4096) :
    val_main_v16 (F := Ideal) X Y (ix2 b m) = Chamfer.near2 X Y b m := by
  unfold val_main_v16
  rw [Host.reduce_eq_fold_single FloatOps.minimumf _ _ reducesTo_S4x4096x4096_S4x4096_d1 red1 h_S_]
  have hf : (val_main_v14 (F := Ideal) X Y ∘ red1.lift (ix2 b m)) = fun n : Fin 4096 => Chamfer.dist X Y b n m :=
    funext fun k => by rw [Function.comp_apply, lift1, v14_at]; rfl
  rw [hf]
  rfl

/-- The first result of the reference program is the mean of the least distances from the points of X. -/
theorem ref_out1 (X Y : Arg) (i : S_.Idx) : val_main_v18 (F := Ideal) X Y i = Chamfer.out1 X Y := by
  rw [val_main_v18_apply, Ideal.hostDivf_def, val_main_v17_apply, val_main_cst_5_apply, val_main_cst_6_apply,
    Ideal.ofBits_def, Ideal.ofBits_def, Ideal.ofBits_zero_f32, zero_add, sum_idx2]
  unfold Chamfer.out1 Chamfer.count
  have h : (∑ a : Fin 4, ∑ c : Fin 4096, val_main_v15 (F := Ideal) X Y (ix2 a c))
      = ∑ a : Fin 4, ∑ c : Fin 4096, Chamfer.near1 X Y a c :=
    Finset.sum_congr rfl fun a _ => Finset.sum_congr rfl fun c _ => v15_at X Y a c
  rw [h]

/-- The second result of the reference program is the mean of the least distances from the points of Y. -/
theorem ref_out2 (X Y : Arg) (i : S_.Idx) : val_main_v20 (F := Ideal) X Y i = Chamfer.out2 X Y := by
  rw [val_main_v20_apply, Ideal.hostDivf_def, val_main_v19_apply, val_main_cst_7_apply, val_main_cst_8_apply,
    Ideal.ofBits_def, Ideal.ofBits_def, Ideal.ofBits_zero_f32, zero_add, sum_idx2]
  unfold Chamfer.out2 Chamfer.count
  have h : (∑ a : Fin 4, ∑ c : Fin 4096, val_main_v16 (F := Ideal) X Y (ix2 a c))
      = ∑ a : Fin 4, ∑ c : Fin 4096, Chamfer.near2 X Y a c :=
    Finset.sum_congr rfl fun a _ => Finset.sum_congr rfl fun c _ => v16_at X Y a c
  rw [h]

end Chamfer.Ref

end
-- ==== Proof.lean ====
/-
  Split Chamfer distance of two batched point clouds, X and Y : [4, 4096, 3]: the mean over the points of X of the
  squared distance to the nearest point of Y, and the same with the clouds exchanged, the squared distance taken as
  max ((|x|² + |y|²) − 2·⟨x, y⟩) 0.

  The kernel transposes each cloud, pads the three coordinates to eight rows with zeros, and walks a grid of 4 batches
  × 8 row blocks: per point it forms the 512 × 4096 tile of clamped squared distances by one matrix product, adds the
  tile's row minima into a running row sum, folds the tile's column minima into a scratch row by a pointwise
  minimum, and at a batch's last row block sums that row; the host adds the four batches and divides by 16384.  The
  reference forms the whole 4 × 4096 × 4096 table and reduces it along each axis.

  On the extended reals the two agree index by index: the padded zero rows add nothing to a squared norm or an inner
  product, a sum over 4096 rows is the sum over eight blocks of 512, and a minimum over 4096 rows is the minimum over
  the blocks of the blocks' minima (minimum is associative, commutative and idempotent, sums in a commutative monoid
  regroup freely).  No step needs the inputs to be finite, so the precondition is never opened.

  The three frames: each kernel program's by running its body in its three cases (first, middle, last row block of a
  batch) and carrying the scratch row and the row-sum buffer from point to point; the reference's from its run.  The
  idealization rewrote no operation, so "preserves" has nothing to state.
-/
import proofs.«158327_g5248450036649_cont_9to1c4b_658_5_alg».proof.Defs
import proofs.«158327_g5248450036649_cont_9to1c4b_658_5_alg».proof.Proof.Gen.Kernel
import proofs.«158327_g5248450036649_cont_9to1c4b_658_5_alg».proof.Proof.Gen.KernelIdeal
import proofs.«158327_g5248450036649_cont_9to1c4b_658_5_alg».proof.Proof.Gen.ReferenceIdeal
import proofs.«158327_g5248450036649_cont_9to1c4b_658_5_alg».proof.Proof.Gen.Pre_finite_inputs
import proofs.«158327_g5248450036649_cont_9to1c4b_658_5_alg».proof.Proof.K.Frame
import proofs.«158327_g5248450036649_cont_9to1c4b_658_5_alg».proof.Proof.KI.Result
import proofs.«158327_g5248450036649_cont_9to1c4b_658_5_alg».proof.Proof.RefSide

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference's frame: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the specification's two numbers of the clouds they were launched with. -/
theorem algebraic : Cert.algebraic_KernelIdeal_ReferenceIdeal := by
  intro m ρ m' ρ' _ hagree
  refine ⟨fun c => fun _ => Chamfer.out1 (Cert.KernelIdeal.Blocks.X m c) (Cert.KernelIdeal.Blocks.Y m c),
    fun c => fun _ => Chamfer.out2 (Cert.KernelIdeal.Blocks.X m c) (Cert.KernelIdeal.Blocks.Y m c),
    Cert.KernelIdeal.Result.run_value m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v18_eq, (hagree c).1, (hagree c).2]
    exact funext fun i => Chamfer.Ref.ref_out1 _ _ i
  · rw [(h c).2.1, Cert.ReferenceIdeal.Read.val_main_v20_eq, (hagree c).1, (hagree c).2]
    exact funext fun i => Chamfer.Ref.ref_out2 _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
